-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S2048x2048 : Shape := ⟨2, ![2048, 2048]⟩
abbrev S2048 : Shape := ⟨1, ![2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  main_v38

def fn_part1 {F : FTy → Type} [FloatOps F] (main_arg4 : FVec F S2048 .f32) (main_arg5 : FVec F S2048 .f32) (main_arg6 : FVec F S2048 .f32) (main_arg7 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_v33

def fn {F : FTy → Type} [FloatOps F] (main_arg0 : FVec F S1024x2048 .f32) (main_arg1 : FVec F S2048x2048 .f32) (main_arg2 : FVec F S2048x2048 .f32) (main_arg3 : FVec F S2048 .f32) (main_arg4 : FVec F S2048 .f32) (main_arg5 : FVec F S2048 .f32) (main_arg6 : FVec F S2048 .f32) (main_arg7 : FVec F S2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_v13 main_v16
-- ==== Kernel.lean ====
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S1024x512 : Shape := ⟨2, ![1024, 512]⟩
abbrev S1x512 : Shape := ⟨2, ![1, 512]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1024x2048, .f32⟩
  | .local _ .vmem, ⟨0, _⟩ => ⟨S1024x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1024x512, .f32⟩
  | .local _ .vmem, ⟨11, _⟩ => ⟨S1024x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let c0 : Index := 0#32
  let arg0 : BitVec 32 := BitVec.ofNat 32 (i 0).val
  let c512_i32 : BitVec 32 := 512#32
  let v0 : BitVec 32 := Scalar.muli arg0 c512_i32
  let v1 : Index := Scalar.indexCast v0
  ![0, v1.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S2048_S1x2048 : S2048.ShapeCasts S1x2048
  h_S1x512 : 0 < S1x512.numel
  shapeCasts_S1x512_S512 : S1x512.ShapeCasts S512
  shapeCasts_S512_S512x1 : S512.ShapeCasts S512x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S512x1_S512x2048 : S512x1.Broadcasts S512x2048
  broadcasts_S1x2048_S512x2048 : S1x2048.Broadcasts S512x2048
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  dot_S1024x2048_S512x2048_S1024x512_1_1_0_0_n_n_wf : DotDims.WF S1024x2048 S512x2048 S1024x512 [1] [1] [0] [0] [] []
  hrank0 : 0 < grid0.rank
  k0_off1_inb : ∀ i : grid0.Coords, ∀ a, (k0_off1 i) a + S1x512.size a ≤ S1x2048.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S1024x2048.size a
  hwx0_0 : ∀ i : grid0.Coords, EltTy.bits .f32 = 32 ∨ (Rect.block (s := S1024x2048) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S2048x2048.size a
  hwx0_1 : ∀ i : grid0.Coords, EltTy.bits .f32 = 32 ∨ (Rect.block (s := S2048x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S2048x2048.size a
  hwx0_2 : ∀ i : grid0.Coords, EltTy.bits .f32 = 32 ∨ (Rect.block (s := S2048x2048) S512x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S1024x2048.size a
  hwx0_8 : ∀ i : grid0.Coords, EltTy.bits .f32 = 32 ∨ (Rect.block (s := S1024x2048) S1024x512.size (cc0_transform_8 i) (hinb0_8 i)).WholeWords (EltTy.packing .f32)

variable [Facts₀]

def dot_S1024x2048_S512x2048_S1024x512_1_1_0_0_n_n : DotDims S1024x2048 S512x2048 S1024x512 where
  lhsContracting := [1]
  rhsContracting := [1]
  lhsNonContracting := [0]
  rhsNonContracting := [0]
  lhsBatch := []
  rhsBatch := []
  wf := dot_S1024x2048_S512x2048_S1024x512_1_1_0_0_n_n_wf

abbrev win0_0 : Pipeline.Window sig grid0 :=
  Pipeline.Window.ofSpec (Memref.whole main_arg0) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v2) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v3) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v4) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S1024x2048 : Shape := ⟨2, ![1024, 2048]⟩
abbrev S2048x2048 : Shape := ⟨2, ![2048, 2048]⟩
abbrev S2048 : Shape := ⟨1, ![2048]⟩
abbrev S1x2048 : Shape := ⟨2, ![1, 2048]⟩
abbrev S256x1024 : Shape := ⟨2, ![256, 1024]⟩
abbrev S512x1024 : Shape := ⟨2, ![512, 1024]⟩
abbrev S1x1024 : Shape := ⟨2, ![1, 1024]⟩
abbrev S1x512 : Shape := ⟨2, ![1, 512]⟩
abbrev S256x512 : Shape := ⟨2, ![256, 512]⟩

abbrev nBuf : Space → Nat
  | .hbm => 14
  | .vmem => 15
  | .smem => 0
  | _ => 0

abbrev bufTy : (tb : Table) → Fin (tcTables nBuf tb) → BufTy
  | .hbm, ⟨0, _⟩ => ⟨S1024x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S2048, .f32⟩
  | .hbm, ⟨11, _⟩ => ⟨S2048, .f32⟩
  | .hbm, ⟨12, _⟩ => ⟨S1x2048, .f32⟩
  | .hbm, ⟨13, _⟩ => ⟨S1024x2048, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v26 : BitVec 1 := Scalar.cmpi .eq arg2 c1_i32
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

class Facts₀ : Prop where
  shapeCasts_S2048_S1x2048 : S2048.ShapeCasts S1x2048
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x1024_S256x1024_0_0 : ∀ a, (![0, 0] : Fin 2 → Nat) a + S256x1024.size a ≤ S256x1024.size a
  h_S256x1024 : 0 < S256x1024.numel
  inb_S512x1024_S512x1024_0_0 : ∀ a, (![0, 0] : Fin 2 → Nat) a + S512x1024.size a ≤ S512x1024.size a
  h_S512x1024 : 0 < S512x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  dot_S256x1024_S512x1024_S256x512_1_1_0_0_n_n_wf : DotDims.WF S256x1024 S512x1024 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S1024x2048.size a
  hwx0_0 : ∀ i : grid0.Coords, EltTy.bits .f32 = 32 ∨ (Rect.block (s := S1024x2048) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S2048x2048.size a
  hwx0_1 : ∀ i : grid0.Coords, EltTy.bits .f32 = 32 ∨ (Rect.block (s := S2048x2048) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S2048x2048.size a
  hwx0_2 : ∀ i : grid0.Coords, EltTy.bits .f32 = 32 ∨ (Rect.block (s := S2048x2048) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x2048.size a
  hwx0_3 : ∀ i : grid0.Coords, EltTy.bits .f32 = 32 ∨ (Rect.block (s := S1x2048) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x2048.size a
  hwx0_5 : ∀ i : grid0.Coords, EltTy.bits .f32 = 32 ∨ (Rect.block (s := S1x2048) S1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S1024x2048.size a
  hwx0_6 : ∀ i : grid0.Coords, EltTy.bits .f32 = 32 ∨ (Rect.block (s := S1024x2048) S256x512.size (cc0_transform_6 i) (hinb0_6 i)).WholeWords (EltTy.packing .f32)

variable [Facts₀]

def dot_S256x1024_S512x1024_S256x512_1_1_0_0_n_n : DotDims S256x1024 S512x1024 S256x512 where
  lhsContracting := [1]
  rhsContracting := [1]
  lhsNonContracting := [0]
  rhsNonContracting := [0]
  lhsBatch := []
  rhsBatch := []
  wf := dot_S256x1024_S512x1024_S256x512_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S256x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== Proof.NoisyLaw.lean ====
/-
  The law of real numbers that joins a noisy linear layer's two arrangements.

  With factorized noise the effective weight of output channel `o` at input `k` is
  `wmu k + wsig k * (eo * ein k)`.  One arrangement multiplies the input row by that effective
  weight and sums once over the whole input axis.  The other keeps the mean path and the noise path
  apart, sums each over the two halves of the input axis, scales the noise path's partial sums by
  `eo` and adds the four partial sums one after the other onto zero.  Over the reals the two are
  equal: multiplication distributes over the sum, and a sum over `2 * n` inputs is the sum over its
  two halves.
-/
import Mathlib.Algebra.BigOperators.Ring.Finset
import Mathlib.Algebra.BigOperators.Fin
import Mathlib.Data.Real.Basic
import Mathlib.Tactic.Ring

namespace NoisyLaw

open Finset

/-- The sum against the effective weight is the mean path's sum plus `eo` times the noise path's:
    `∑ x·(wmu + wsig·(eo·ein)) = ∑ x·wmu + (∑ (x·ein)·wsig)·eo`. -/
theorem fused_eq_split {K : Type*} [Fintype K] (x wmu wsig ein : K → ℝ) (eo : ℝ) :
    ∑ k, x k * (wmu k + wsig k * (eo * ein k))
      = ∑ k, x k * wmu k + (∑ k, (x k * ein k) * wsig k) * eo := by
  rw [Finset.sum_mul, ← Finset.sum_add_distrib]
  exact Finset.sum_congr rfl (fun k _ => by ring)

/-- A sum over `n + n` inputs is the sum over the first `n` plus the sum over the last `n`. -/
theorem sum_halves (n : ℕ) (f : Fin (n + n) → ℝ) :
    ∑ k, f k = ∑ k : Fin n, f (Fin.castAdd n k) + ∑ k : Fin n, f (Fin.natAdd n k) :=
  Fin.sum_univ_add f

end NoisyLaw
-- ==== Proof.NoisySpec.lean ====
/-
  What a noisy linear layer with factorized noise computes, in two arrangements, over the extended reals.

  The layer has 2048 inputs and 2048 outputs and is applied to 1024 rows.  For row `b` and output `o` the result
  is the row's product with the effective weight `wmu o k + wsig o k * (eout o * ein k)`, summed over the inputs
  `k`, plus the effective bias `bmu o + bsig o * beps o`.

  `fused` is that formula as written: one sum over all 2048 inputs against the effective weight.

  `split` keeps the mean path `x·wmu` and the noise path `(x·ein)·wsig` apart, cuts the input axis into two
  halves of 1024, and adds four partial sums onto zero one after the other — the mean path of the first half, the
  noise path of the first half scaled by `eout o`, then the same two for the second half — and last the bias.

  When every entry is a real number the two are equal (`fused_eq_split`): the extended reals' sums and products
  of reals are the reals', and over the reals this is distributivity and cutting a sum in two (NoisyLaw).  At an
  infinite entry distributivity fails, so the hypothesis is needed.
-/
import proofs.«163315_g2000605556667554_pallasbulk_845_24_alg».proof.Proof.NoisyLaw
import Mathlib.Data.EReal.Operations

noncomputable section

namespace NoisySpec

open Finset

/-- The effective bias of output `o`. -/
def bias (bmu bsig beps : Fin 2048 → EReal) (o : Fin 2048) : EReal := bmu o + bsig o * beps o

/-- ONE sum over all inputs against the effective weight, plus the bias. -/
def fused (x : Fin 1024 → Fin 2048 → EReal) (wmu wsig : Fin 2048 → Fin 2048 → EReal)
    (ein eout bmu bsig beps : Fin 2048 → EReal) (b : Fin 1024) (o : Fin 2048) : EReal :=
  (∑ k : Fin 2048, x b k * (wmu o k + wsig o k * (eout o * ein k))) + bias bmu bsig beps o

/-- Input `k` of half `h` of the input axis: `1024 * h + k`. -/
def half (h : Fin 2) (k : Fin 1024) : Fin 2048 := ⟨1024 * h.val + k.val, by have := h.isLt; have := k.isLt; omega⟩

/-- The mean path's partial sum over half `h`. -/
def muPart (x : Fin 1024 → Fin 2048 → EReal) (wmu : Fin 2048 → Fin 2048 → EReal) (b : Fin 1024) (o : Fin 2048)
    (h : Fin 2) : EReal :=
  ∑ k : Fin 1024, x b (half h k) * wmu o (half h k)

/-- The noise path's partial sum over half `h`, before it is scaled by `eout o`. -/
def sigPart (x : Fin 1024 → Fin 2048 → EReal) (wsig : Fin 2048 → Fin 2048 → EReal) (ein : Fin 2048 → EReal)
    (b : Fin 1024) (o : Fin 2048) (h : Fin 2) : EReal :=
  ∑ k : Fin 1024, (x b (half h k) * ein (half h k)) * wsig o (half h k)

/-- What the accumulator holds after half `0`: zero, plus the mean path, plus the scaled noise path. -/
def acc0 (x : Fin 1024 → Fin 2048 → EReal) (wmu wsig : Fin 2048 → Fin 2048 → EReal) (ein eout : Fin 2048 → EReal)
    (b : Fin 1024) (o : Fin 2048) : EReal :=
  (0 + muPart x wmu b o 0) + sigPart x wsig ein b o 0 * eout o

/-- What it holds after half `1`: the same two terms of that half added onto `acc0`. -/
def acc1 (x : Fin 1024 → Fin 2048 → EReal) (wmu wsig : Fin 2048 → Fin 2048 → EReal) (ein eout : Fin 2048 → EReal)
    (b : Fin 1024) (o : Fin 2048) : EReal :=
  (acc0 x wmu wsig ein eout b o + muPart x wmu b o 1) + sigPart x wsig ein b o 1 * eout o

/-- The four partial sums added one after the other onto zero, plus the bias. -/
def split (x : Fin 1024 → Fin 2048 → EReal) (wmu wsig : Fin 2048 → Fin 2048 → EReal)
    (ein eout bmu bsig beps : Fin 2048 → EReal) (b : Fin 1024) (o : Fin 2048) : EReal :=
  acc1 x wmu wsig ein eout b o + bias bmu bsig beps o

/-- The coercion of the reals into the extended reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the 2048 inputs is the sum over half `0` plus the sum over half `1`. -/
theorem sum_halves (f : Fin 2048 → ℝ) :
    ∑ k, f k = ∑ k : Fin 1024, f (half 0 k) + ∑ k : Fin 1024, f (half 1 k) := by
  refine (NoisyLaw.sum_halves 1024 f).trans ?_
  have e0 : ∀ k : Fin 1024, Fin.castAdd 1024 k = half 0 k := fun k => Fin.ext (by simp [half])
  have e1 : ∀ k : Fin 1024, Fin.natAdd 1024 k = half 1 k := fun k => Fin.ext (by simp [half]; omega)
  simp only [e0, e1]

/-- ON REAL ENTRIES THE TWO ARRANGEMENTS AGREE. -/
theorem fused_eq_split (x : Fin 1024 → Fin 2048 → EReal) (wmu wsig : Fin 2048 → Fin 2048 → EReal)
    (ein eout bmu bsig beps : Fin 2048 → EReal)
    (hx : ∀ b k, ∃ r : ℝ, x b k = (r : EReal)) (hwmu : ∀ o k, ∃ r : ℝ, wmu o k = (r : EReal))
    (hwsig : ∀ o k, ∃ r : ℝ, wsig o k = (r : EReal)) (hein : ∀ k, ∃ r : ℝ, ein k = (r : EReal))
    (heout : ∀ o, ∃ r : ℝ, eout o = (r : EReal)) (b : Fin 1024) (o : Fin 2048) :
    fused x wmu wsig ein eout bmu bsig beps b o = split x wmu wsig ein eout bmu bsig beps b o := by
  choose xr hxr using hx
  choose wmur hwmur using hwmu
  choose wsigr hwsigr using hwsig
  choose einr heinr using hein
  choose eoutr heoutr using heout
  unfold fused split acc1 acc0 muPart sigPart
  congr 1
  simp only [hxr, hwmur, hwsigr, heinr, heoutr, ← EReal.coe_mul, ← EReal.coe_add, ← coe_sum, ← EReal.coe_zero]
  refine congrArg _ ?_
  rw [NoisyLaw.fused_eq_split (fun k => xr b k) (fun k => wmur o k) (fun k => wsigr o k) einr (eoutr o),
    sum_halves (fun k => xr b k * wmur o k), sum_halves (fun k => xr b k * einr k * wsigr o k)]
  ring

end NoisySpec

end
-- ==== Proof.NoisyFinite.lean ====
/-
  Finiteness read back from the precondition.

  The precondition says of each of the eight argument arrays `v` that "every entry of `|v|` is strictly below
  +∞", eight such statements joined by `and`.  Over the extended reals `|a|` is `max a (-a)`, and `max a (-a) < ⊤`
  excludes both infinities, so the entry is a real number.  This module draws that conclusion for the five
  arrays the layer's distributive law needs: the rows `x`, the two weight matrices and the two noise vectors.
-/
import proofs.«163315_g2000605556667554_pallasbulk_845_24_alg».proof.Defs
import proofs.«163315_g2000605556667554_pallasbulk_845_24_alg».proof.Proof.Gen.Pre_finite_inputs
import Idealize.ShloMosaic.Lib.ReduceAll
import Idealize.ShloMosaic.Lib.ValueIdx
noncomputable section
open Idealize.ShloMosaic Idealize.ShloMosaic.TcCoe Idealize.SL.Sem Idealize.ShloMosaic.ValueIdx
namespace Cert.Proof.NoisyFinite
open Cert.KernelIdeal

/-- The shape of a single number has exactly one index. -/
instance : Subsingleton (⟨0, ![]⟩ : Shape).Idx := ⟨fun a b => funext fun d => d.elim0⟩

/-- The word `0x7F800000` is +∞. -/
theorem inf_word : Ideal.ofBits .f32 0x7F800000#32 = ⊤ := by simp [Ideal.ofBits, Ideal.ieee]

/-- ONE ENTRY: if `max a (-a) < +∞` holds (the comparison's bit is 1) then `a` is a real number: at `a = ⊤` the
    maximum is `⊤`, at `a = ⊥` it is `-⊥ = ⊤`, and `⊤ < ⊤` is false. -/
theorem real_of_abs_lt_inf (a : EReal)
    (h : Ideal.cmp .olt (max a (-a)) (Ideal.ofBits .f32 0x7F800000#32) = 1#1) : ∃ r : ℝ, a = (r : EReal) := by
  rw [inf_word] at h
  unfold Ideal.cmp at h
  induction a using EReal.rec with
  | bot => simp at h
  | coe r => exact ⟨r, rfl⟩
  | top => simp at h

/-- ONE ARRAY: if the conjunction over all indices of "`|v i| < +∞`" is 1, every entry of `v` is a real number.
    The conjunction over all axes has a single result index, so its being 1 gives the bit at each index `i`. -/
theorem real_of_all {s : Shape} {axes : List (Fin s.rank)} (v : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf v) (broadcastInDim s ![] hb (constant (F := Ideal) (⟨0, ![]⟩ : Shape) .f32 0x7F800000#32)))
          (constantI (⟨0, ![]⟩ : Shape) 1 1#1) hr hu ix0 = 1#1) (i : s.Idx) :
    ∃ r : ℝ, v i = (r : EReal) :=
  real_of_abs_lt_inf (v i) (Host.reduce_andi_all _ _ hr hu ix0 e i)

/-- The `and` of two one-number arrays, read at the one index, is the `and` of the two bits. -/
theorem andi_ix0 (a b : IVec (⟨0, ![]⟩ : Shape) 1) : andi a b ix0 = IntOp.andi (a ix0) (b ix0) := rfl

theorem real_of_pre [hPre : Cert.Pre_finite_inputs.Facts]
    (m : (ℓ : Loc nD τ sig) → Buf (Elt Ideal) ℓ) (h : Cert.Pre_KernelIdeal m) (c : Dev nD) :
    (∀ i, ∃ r : ℝ, m ((c.tc : Thread nD τ).loc main_arg0) i = (r : EReal))
    ∧ (∀ i, ∃ r : ℝ, m ((c.tc : Thread nD τ).loc main_arg1) i = (r : EReal))
    ∧ (∀ i, ∃ r : ℝ, m ((c.tc : Thread nD τ).loc main_arg2) i = (r : EReal))
    ∧ (∀ i, ∃ r : ℝ, m ((c.tc : Thread nD τ).loc main_arg3) i = (r : EReal))
    ∧ (∀ i, ∃ r : ℝ, m ((c.tc : Thread nD τ).loc main_arg4) i = (r : EReal)) := by
  have h0 := congrFun (h c) ValueIdx.ix0
  dsimp only [Cert.Pre_finite_inputs.fn, Cert.Pre_finite_inputs.fn_part1, Cert.Pre_finite_inputs.fn_part2] at h0
  simp only [andi_ix0, IntOp.andi_eq_one] at h0
  obtain ⟨⟨⟨⟨⟨⟨⟨e0, e1⟩, e2⟩, e3⟩, e4⟩, -⟩, -⟩, -⟩ := h0
  exact ⟨real_of_all _ _ _ _ e0, real_of_all _ _ _ _ e1, real_of_all _ _ _ _ e2, real_of_all _ _ _ _ e3,
    real_of_all _ _ _ _ e4⟩

end Cert.Proof.NoisyFinite
-- ==== Proof.KernelColumn.lean ====
/-
  Two layout operations read at an index given by coordinates: a vector of `a` entries viewed as a column
  `[a, 1]`, and a column `[a, 1]` copied along the second axis to `[a, b]`.  Both read the operand at the row
  coordinate alone: the column's second coordinate is always `0`.
-/
import Idealize.ShloMosaic.Lib.ValueLayout

namespace Cert.KernelIdeal.NoisyValue

open Idealize.ShloMosaic Idealize.ShloMosaic.ValueIdx

variable {α : Type}

/-- An `[a]` vector cast to the column `[a, 1]` reads, at `(i, u)`, the operand at `i`: both have row-major
    position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.NoisyValue
-- ==== Proof.KernelPayload.lean ====
/-
  The body's arithmetic read at one entry of its [1024, 512] result block.

  (`pay_apply`, over the loaded blocks; `point_eq`, over the arrays the blocks were cut from.)

  The body forms the effective weight block `w[cc, k] = wmu[cc, k] + wsig[cc, k] * (eout[cc] * ein[k])` of its 512 outputs,
  multiplies the 1024 rows of `x` with it (contracting the 2048 inputs `k` of both operands, into a zero
  accumulator) and adds the effective bias `bmu[cc] + bsig[cc] * beps[cc]`, one row copied over all 1024 rows.
  Over the extended reals the product into the zero accumulator is the plain sum over `k`, and the change of
  float format in front of it is the identity; the layout operations each read one entry of their operand.
-/
import proofs.«163315_g2000605556667554_pallasbulk_845_24_alg».proof.Proof.Gen.KernelIdeal.Skeleton
import proofs.«163315_g2000605556667554_pallasbulk_845_24_alg».proof.Proof.KernelColumn
import proofs.«163315_g2000605556667554_pallasbulk_845_24_alg».proof.Proof.NoisySpec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.KernelIdeal.NoisyValue

open Cert.KernelIdeal Cert.KernelIdeal.Gen

/-- The product's dimension numbers: both operands contract their axis 1, of extent 2048. -/
abbrev D : DotDims S1024x2048 S512x2048 S1024x512 := dot_S1024x2048_S512x2048_S1024x512_1_1_0_0_n_n

/-- A [1, 512] row viewed as a vector of 512 reads entry `cc` of the row. -/
theorem row_apply (v : FVec Ideal S1x512 .f32) (cc : Fin 512) :
    shapeCast S512 v shapeCasts_S1x512_S512 (ix1 cc) = v (ix2 (0 : Fin 1) cc) :=
  shapeCast_1a_a_apply v shapeCasts_S1x512_S512 cc

/-- The noise of the outputs as a column, copied along the inputs: at `(cc, k)` it is entry `cc` of the loaded row. -/
theorem eoutCol_apply (v2 : FVec Ideal S1x512 .f32) (cc : Fin 512) (k : Fin 2048) :
    broadcastTo S512x2048 (shapeCast S512x1 (shapeCast S512 v2 shapeCasts_S1x512_S512) shapeCasts_S512_S512x1)
      broadcasts_S512x1_S512x2048 (ix2 cc k) = v2 (ix2 (0 : Fin 1) cc) :=
  (broadcastTo_a1_ab_apply _ broadcasts_S512x1_S512x2048 cc k).trans
    ((shapeCast_a_a1_apply _ shapeCasts_S512_S512x1 cc (0 : Fin 1)).trans (row_apply v2 cc))

/-- The noise of the inputs as a row, copied over the outputs: at `(cc, k)` it is entry `k` of the loaded row. -/
theorem einRow_apply (v5 : FVec Ideal S1x2048 .f32) (cc : Fin 512) (k : Fin 2048) :
    broadcastTo S512x2048 (shapeCast S1x2048 v5 shapeCasts_S1x2048_S1x2048) broadcasts_S1x2048_S512x2048 (ix2 cc k)
      = v5 (ix2 (0 : Fin 1) k) :=
  (broadcastTo_1b_ab_apply _ broadcasts_S1x2048_S512x2048 cc k).trans
    (congrFun (shapeCast_self v5 shapeCasts_S1x2048_S1x2048) _)

/-- A vector of 512 viewed as a row and copied over the 1024 rows: at `(r, cc)` it is entry `cc`. -/
theorem biasRows_apply (w : FVec Ideal S512 .f32) (r : Fin 1024) (cc : Fin 512) :
    broadcastTo S1024x512 (shapeCast S1x512 w shapeCasts_S512_S1x512) broadcasts_S1x512_S1024x512 (ix2 r cc)
      = w (ix1 cc) :=
  (broadcastTo_1b_ab_apply _ broadcasts_S1x512_S1024x512 r cc).trans
    (shapeCast_a_1a_apply w shapeCasts_S512_S1x512 (0 : Fin 1) cc)

/-- The left operand of the product at result entry `(r, cc)` and contraction position `k` is read at `(r, k)`. -/
theorem lhsIdx_eq (r : Fin 1024) (cc : Fin 512) (k : Fin 2048) :
    D.lhsIdx (ix2 r cc) ((contrEquiv1 D 2048 rfl rfl).symm k) = ix2 r k := by
  have c2 := contrEquiv1_symm_val D 2048 rfl rfl k
  funext ax; apply Fin.ext
  match ax with
  | ⟨0, _⟩ => simp [DotDims.lhsIdx, D, dot_S1024x2048_S512x2048_S1024x512_1_1_0_0_n_n]; rfl
  | ⟨1, _⟩ => simp [DotDims.lhsIdx, D, dot_S1024x2048_S512x2048_S1024x512_1_1_0_0_n_n]; exact c2

/-- The right operand is read at `(cc, k)`. -/
theorem rhsIdx_eq (r : Fin 1024) (cc : Fin 512) (k : Fin 2048) :
    D.rhsIdx (ix2 r cc) ((contrEquiv1 D 2048 rfl rfl).symm k) = ix2 cc k := by
  have c2 := contrEquiv1_symm_val D 2048 rfl rfl k
  funext ax; apply Fin.ext
  match ax with
  | ⟨0, _⟩ => simp [DotDims.rhsIdx, D, dot_S1024x2048_S512x2048_S1024x512_1_1_0_0_n_n]; rfl
  | ⟨1, _⟩ => simp [DotDims.rhsIdx, D, dot_S1024x2048_S512x2048_S1024x512_1_1_0_0_n_n]; exact c2

/-- THE PAYLOAD AT `(r, cc)`: the sum over the inputs of the row's entries against the effective weight of output
    `cc`, plus that output's effective bias. -/
theorem pay_apply (v2 : FVec Ideal S1x512 .f32) (v5 : FVec Ideal S1x2048 .f32) (v10 v11 : FVec Ideal S512x2048 .f32)
    (v15 : FVec Ideal S1024x2048 .f32) (v19 v22 v25 : FVec Ideal S1x512 .f32) (r : Fin 1024) (cc : Fin 512) :
    k0_pay1 (F := Ideal) v2 v5 v10 v11 v15 v19 v22 v25 (ix2 r cc)
      = (∑ k : Fin 2048, v15 (ix2 r k)
            * (v10 (ix2 cc k) + v11 (ix2 cc k) * (v2 (ix2 (0 : Fin 1) cc) * v5 (ix2 (0 : Fin 1) k))))
        + (v19 (ix2 (0 : Fin 1) cc) + v22 (ix2 (0 : Fin 1) cc) * v25 (ix2 (0 : Fin 1) cc)) := by
  unfold k0_pay1
  refine (addf_apply _ _ _).trans (congrArg₂ (· + ·) ?_ ?_)
  · refine (Ideal.matmul_constant_zero_apply D none _ _ (ix2 r cc)).trans ?_
    refine (Equiv.sum_comp (contrEquiv1 D 2048 rfl rfl).symm _).symm.trans ?_
    refine Finset.sum_congr rfl fun k _ => ?_
    rw [lhsIdx_eq, rhsIdx_eq]
    refine congrArg₂ (· * ·) rfl ?_
    refine (truncf_apply (ψ := .bf16) _ bitsLt_bf16_f32 (ix2 cc k)).trans ((addf_apply _ _ _).trans (congrArg₂ (· + ·) rfl ?_))
    refine (mulf_apply _ _ _).trans (congrArg₂ (· * ·) rfl ?_)
    exact (mulf_apply _ _ _).trans (congrArg₂ (· * ·) (eoutCol_apply v2 cc k) (einRow_apply v5 cc k))
  · refine (biasRows_apply _ r cc).trans ?_
    refine (addf_apply _ _ _).trans (congrArg₂ (· + ·) (row_apply v19 cc) ?_)
    exact (mulf_apply _ _ _).trans (congrArg₂ (· * ·) (row_apply v22 cc) (row_apply v25 cc))

/-- A load of 512 consecutive columns of a [1, 2048] row, from column `off 1` on, reads at `(0, cc)` the row's entry
    `off 1 + cc` (the row offset can only be `0`). -/
theorem ld_cols_apply (X : FVec Ideal S1x2048 .f32) (off : Fin 2 → Nat)
    (inb : ∀ a, off a + S1x512.size a ≤ S1x2048.size a) (cc : Fin 512) (o : Fin 2048) (ho : o.val = off 1 + cc.val) :
    View.ld (Val := Elt Ideal) (e' := EltTy.f32) X (Rect.unit (s := S1x2048) off S1x512.size inb) (ix2 (0 : Fin 1) cc) = X (ix2 (0 : Fin 1) o) := by
  show X _ = X _
  refine congrArg X ?_
  funext a; apply Fin.ext
  match a with
  | ⟨0, _⟩ =>
    have h0 : off 0 + 1 ≤ 1 := inb 0
    show off 0 + 1 * 0 = 0
    omega
  | ⟨1, _⟩ =>
    show off 1 + 1 * cc.val = o.val
    omega

/-- THE PAYLOAD AT `(r, cc)` OVER THE ARRAYS.  Let the loaded blocks agree with arrays `X`, `Wmu`, `Wsig`, `Ein`,
    `Eout`, `Bmu`, `Bsig`, `Beps` where the entry reads them — row `r` of `X`, row `o` of the two weights, entry `o` of the
    per-output vectors, all of `Ein` —, `o` being the output that column `cc` of the block stands for (the body's
    column offset plus `cc`).  Then the entry is the layer's formula at `(r, o)`: one sum against the effective weight,
    plus the effective bias. -/
theorem point_eq (X : Fin 1024 → Fin 2048 → EReal) (Wmu Wsig : Fin 2048 → Fin 2048 → EReal)
    (Ein Eout Bmu Bsig Beps : Fin 2048 → EReal)
    (x0 : FVec Ideal S1024x2048 .f32) (x1 x2 : FVec Ideal S512x2048 .f32) (x3 x4 x5 x6 x7 : FVec Ideal S1x2048 .f32)
    (off : Fin 2 → Nat) (inb : ∀ a, off a + S1x512.size a ≤ S1x2048.size a)
    (r : Fin 1024) (cc : Fin 512) (o : Fin 2048) (ho : o.val = off 1 + cc.val)
    (h0 : ∀ k, x0 (ix2 r k) = X r k) (h1 : ∀ k, x1 (ix2 cc k) = Wmu o k) (h2 : ∀ k, x2 (ix2 cc k) = Wsig o k)
    (h3 : x3 (ix2 (0 : Fin 1) o) = Eout o) (h4 : ∀ k, x4 (ix2 (0 : Fin 1) k) = Ein k)
    (h5 : x5 (ix2 (0 : Fin 1) o) = Bmu o) (h6 : x6 (ix2 (0 : Fin 1) o) = Bsig o)
    (h7 : x7 (ix2 (0 : Fin 1) o) = Beps o) :
    k0_pay1 (F := Ideal) (View.ld (Val := Elt Ideal) (e' := EltTy.f32) x3 (Rect.unit (s := S1x2048) off S1x512.size inb)) x4 x1 x2 x0
        (View.ld (Val := Elt Ideal) (e' := EltTy.f32) x5 (Rect.unit (s := S1x2048) off S1x512.size inb))
        (View.ld (Val := Elt Ideal) (e' := EltTy.f32) x6 (Rect.unit (s := S1x2048) off S1x512.size inb))
        (View.ld (Val := Elt Ideal) (e' := EltTy.f32) x7 (Rect.unit (s := S1x2048) off S1x512.size inb)) (ix2 r cc)
      = NoisySpec.fused X Wmu Wsig Ein Eout Bmu Bsig Beps r o := by
  refine (pay_apply _ x4 x1 x2 x0 _ _ _ r cc).trans ?_
  rw [ld_cols_apply x3 off inb cc o ho, ld_cols_apply x5 off inb cc o ho, ld_cols_apply x6 off inb cc o ho,
    ld_cols_apply x7 off inb cc o ho, h3, h5, h6, h7]
  unfold NoisySpec.fused NoisySpec.bias
  refine congrArg₂ (· + ·) (Finset.sum_congr rfl fun k _ => ?_) rfl
  rw [h0, h1, h2, h4]

end Cert.KernelIdeal.NoisyValue

end
-- ==== Proof.KernelPiece.lean ====
/-
  What the body leaves in its output block, as the body's arithmetic of what it loaded.

  The body stores once, through the whole [1024, 512] staging buffer, so the buffer ends holding that store's
  value.  Its loads of `x`, of the two weight blocks and of the input-noise row read whole buffers, so they read the
  buffers' contents; its loads of the output-noise row and of the three bias rows read the 512 entries that start at
  the column offset the body computes from the grid coordinate.  For any float values.
-/
import proofs.«163315_g2000605556667554_pallasbulk_845_24_alg».proof.Proof.Gen.KernelIdeal.Frame
import Idealize.ShloMosaic.Lib.Pipeline.Value

noncomputable section

open Idealize.ShloMosaic Idealize.ShloMosaic.TcCoe Idealize.SL.Sem

namespace Cert.KernelIdeal.NoisyValue

open Cert.KernelIdeal Cert.KernelIdeal.Gen

variable {F : FTy → Type} [FloatOps F]

/-- The zero offsets of a whole-buffer access. -/
theorem zero_off : (![0, 0] : Fin 2 → Nat) = fun _ => 0 := funext fun a => by fin_cases a <;> rfl

/-- The 512 consecutive columns of a [1, 2048] row that the body reads at grid coordinate `i`. -/
abbrev cols (i : grid0.Coords) : Rect S1x2048 := Rect.unit (s := S1x2048) (k0_off1 i) S1x512.size (k0_off1_inb i)

/-- THE OUTPUT BLOCK after the body: the body's arithmetic of the loaded blocks `x0` (the rows), `x1`, `x2` (the two
    weight blocks), `x4` (the input noise) and of the body's 512 columns of `x3` (the output noise) and `x5`, `x6`,
    `x7` (the bias rows). -/
theorem block_eq (c : Dev nD) (i : grid0.Coords) (arg1 : Memref sig .tc .vmem S1024x2048 .f32) (harg1 : arg1.IsWhole) (arg2 : Memref sig .tc .vmem S512x2048 .f32) (harg2 : arg2.IsWhole) (arg3 : Memref sig .tc .vmem S512x2048 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1x2048 .f32) (harg8 : arg8.IsWhole) (arg9 : Memref sig .tc .vmem S1024x512 .f32) (harg9 : arg9.IsWhole)
    (x0 : Vec F S1024x2048 .f32) (x1 : Vec F S512x2048 .f32) (x2 : Vec F S512x2048 .f32) (x3 : Vec F S1x2048 .f32) (x4 : Vec F S1x2048 .f32) (x5 : Vec F S1x2048 .f32) (x6 : Vec F S1x2048 .f32) (x7 : Vec F S1x2048 .f32) :
    out0_A_8 c i arg1 harg1 arg2 harg2 arg3 harg3 arg4 harg4 arg5 harg5 arg6 harg6 arg7 harg7 arg8 harg8 arg9 harg9 x0 x1 x2 x3 x4 x5 x6 x7
      = k0_pay1 (View.ld x3 (cols i)) x4 x1 x2 x0 (View.ld x5 (cols i)) (View.ld x6 (cols i)) (View.ld x7 (cols i)) := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  rw [View.canon_unit_zero zero_off]
  simp only [View.readAt_eq_ld, harg1.read_unread, harg2.read_unread, harg3.read_unread, harg4.read_unread,
    harg5.read_unread, harg6.read_unread, harg7.read_unread, harg8.read_unread,
    View.ld_unit_zero (S := S1024x2048) zero_off, View.ld_unit_zero (S := S512x2048) zero_off,
    View.ld_unit_zero (S := S1x2048) zero_off]

end Cert.KernelIdeal.NoisyValue

end
-- ==== Proof.KernelHost.lean ====
/-
  The five rows the region finds: each is one of the five vector arguments viewed as a [1, 2048] row, so its entry
  `(0, k)` is the argument's entry `k`.  In the order the region's windows take them: the output noise, the input
  noise, the bias mean, the bias deviation, the bias noise.
-/
import proofs.«163315_g2000605556667554_pallasbulk_845_24_alg».proof.Proof.Gen.KernelIdeal.Frame.Runs
import Idealize.ShloMosaic.Lib.ValueLayout
import Idealize.ShloMosaic.Lib.StableHlo.Run

noncomputable section

open Idealize.ShloMosaic Idealize.ShloMosaic.TcCoe Idealize.SL.Sem Idealize.ShloMosaic.ValueIdx
open Idealize.ShloMosaic.StableHlo

namespace Cert.KernelIdeal.NoisyValue

open Cert.KernelIdeal Cert.KernelIdeal.Gen

variable (m : (ℓ : Loc nD τ sig) → Buf (Elt Ideal) ℓ) (c : Dev nD)

/-- The output-noise row is the fifth argument as a row. -/
theorem row_eout : (V m c main_call0_v0 : S1x2048.Idx → EReal)
    = shapeCast S1x2048 (m ((c : Thread nD τ).loc main_arg4) : S2048.Idx → EReal) shapeCasts_S2048_S1x2048 := by
  dsimp only [Gen.V, Gen.hostOps0]; after_results; rfl

/-- The input-noise row is the fourth argument as a row. -/
theorem row_ein : (V m c main_call0_v1 : S1x2048.Idx → EReal)
    = shapeCast S1x2048 (m ((c : Thread nD τ).loc main_arg3) : S2048.Idx → EReal) shapeCasts_S2048_S1x2048 := by
  dsimp only [Gen.V, Gen.hostOps0]; after_results; rfl

/-- The bias-mean row is the sixth argument as a row. -/
theorem row_bmu : (V m c main_call0_v2 : S1x2048.Idx → EReal)
    = shapeCast S1x2048 (m ((c : Thread nD τ).loc main_arg5) : S2048.Idx → EReal) shapeCasts_S2048_S1x2048 := by
  dsimp only [Gen.V, Gen.hostOps0]; after_results; rfl

/-- The bias-deviation row is the seventh argument as a row. -/
theorem row_bsig : (V m c main_call0_v3 : S1x2048.Idx → EReal)
    = shapeCast S1x2048 (m ((c : Thread nD τ).loc main_arg6) : S2048.Idx → EReal) shapeCasts_S2048_S1x2048 := by
  dsimp only [Gen.V, Gen.hostOps0]; after_results; rfl

/-- The bias-noise row is the eighth argument as a row. -/
theorem row_beps : (V m c main_call0_v4 : S1x2048.Idx → EReal)
    = shapeCast S1x2048 (m ((c : Thread nD τ).loc main_arg7) : S2048.Idx → EReal) shapeCasts_S2048_S1x2048 := by
  dsimp only [Gen.V, Gen.hostOps0]; after_results; rfl

/-- A vector of 2048 viewed as a row reads, at `(0, k)`, its entry `k`. -/
theorem asRow_apply (x : S2048.Idx → EReal) (k : Fin 2048) :
    shapeCast S1x2048 x shapeCasts_S2048_S1x2048 (ix2 (0 : Fin 1) k) = x (ix1 k) :=
  shapeCast_a_1a_apply x shapeCasts_S2048_S1x2048 (0 : Fin 1) k

theorem row_eout_apply (k : Fin 2048) :
    (V m c main_call0_v0 : S1x2048.Idx → EReal) (ix2 (0 : Fin 1) k) = m ((c : Thread nD τ).loc main_arg4) (ix1 k) := by
  rw [row_eout]; exact asRow_apply _ k

theorem row_ein_apply (k : Fin 2048) :
    (V m c main_call0_v1 : S1x2048.Idx → EReal) (ix2 (0 : Fin 1) k) = m ((c : Thread nD τ).loc main_arg3) (ix1 k) := by
  rw [row_ein]; exact asRow_apply _ k

theorem row_bmu_apply (k : Fin 2048) :
    (V m c main_call0_v2 : S1x2048.Idx → EReal) (ix2 (0 : Fin 1) k) = m ((c : Thread nD τ).loc main_arg5) (ix1 k) := by
  rw [row_bmu]; exact asRow_apply _ k

theorem row_bsig_apply (k : Fin 2048) :
    (V m c main_call0_v3 : S1x2048.Idx → EReal) (ix2 (0 : Fin 1) k) = m ((c : Thread nD τ).loc main_arg6) (ix1 k) := by
  rw [row_bsig]; exact asRow_apply _ k

theorem row_beps_apply (k : Fin 2048) :
    (V m c main_call0_v4 : S1x2048.Idx → EReal) (ix2 (0 : Fin 1) k) = m ((c : Thread nD τ).loc main_arg7) (ix1 k) := by
  rw [row_beps]; exact asRow_apply _ k

end Cert.KernelIdeal.NoisyValue

end
-- ==== Proof.KernelBlocks.lean ====
/-
  Where each window's block sits in its array at a grid point, and which points' output blocks fill the result.

  The grid has four points.  At point `t` the output block is columns `512 t … 512 t + 511` of the [1024, 2048]
  result, all 1024 rows; the two weight blocks are rows `512 t … 512 t + 511` of the weights, all 2048 columns; `x`
  and the five [1, 2048] rows are taken whole; and the body's own column offset into those rows is `512 t`.  An
  entry of a block is the array's entry at block index × block extent + the entry's coordinate, axis by axis.
  Column `o` of the result is therefore written by the point `o / 512`, and every column by some point.
-/
import proofs.«163315_g2000605556667554_pallasbulk_845_24_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.NoisyValue

open Cert.KernelIdeal Cert.KernelIdeal.Gen

variable {F : FTy → Type} [FloatOps F]
variable (m : (ℓ : Loc nD τ sig) → Buf (Elt F) ℓ)

/-- The block indices of the nine windows and the body's column offset, at every grid point (decided over the four
    points). -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = t.val
    ∧ k0_off1 (grid0.coords t) (1 : Fin 2) = 512 * t.val :=
  (by decide +kernel : ∀ t : Fin grid0.N, _)

/-- The grid's point number is below four. -/
theorem point_lt (t : Fin cfg0.N) : t.val < 4 := by have h : cfg0.N = 4 := N_0; have := t.isLt; omega

/-- A function on the [1024, 512] block's indices is determined by its values at the indices written by coordinates. -/
theorem block_ext {α : Type} (f g : S1024x512.Idx → α) (h : ∀ (r : Fin 1024) (cc : Fin 512), f (ix2 r cc) = g (ix2 r cc)) :
    f = g := funext fun y => by rw [eq_ix2 y]; exact h _ _

/-- The block of `x` is `x`. -/
theorem blk_x (c : Dev nD) (t : Fin cfg0.N) (r : Fin 1024) (k : Fin 2048) :
    (iblk m c 0 t : Vec F S1024x2048 .f32) (ix2 r k) = V m c main_arg0 (ix2 r k) := by
  obtain ⟨e0, e1, -⟩ := idx_facts t
  show V m c main_arg0 (((cfg0.win 0).blk t).view.emb (ix2 r k)) = V m c main_arg0 (ix2 r k)
  refine congrArg (V m c main_arg0) ?_
  funext a; apply Fin.ext
  match a with
  | ⟨0, _⟩ => show win0_0.index t (0 : Fin 2) * 1024 + 1 * r.val = r.val; omega
  | ⟨1, _⟩ => show win0_0.index t (1 : Fin 2) * 2048 + 1 * k.val = k.val; omega

/-- Row `cc` of the mean-weight block is row `512 t + cc` of the mean weights. -/
theorem blk_wmu (c : Dev nD) (t : Fin cfg0.N) (cc : Fin 512) (k : Fin 2048) (o : Fin 2048) (ho : o.val = 512 * t.val + cc.val) :
    (iblk m c 1 t : Vec F S512x2048 .f32) (ix2 cc k) = V m c main_arg1 (ix2 o k) := by
  obtain ⟨-, -, e0, e1, -⟩ := idx_facts t
  show V m c main_arg1 (((cfg0.win 1).blk t).view.emb (ix2 cc k)) = V m c main_arg1 (ix2 o k)
  refine congrArg (V m c main_arg1) ?_
  funext a; apply Fin.ext
  match a with
  | ⟨0, _⟩ => show win0_1.index t (0 : Fin 2) * 512 + 1 * cc.val = o.val; omega
  | ⟨1, _⟩ => show win0_1.index t (1 : Fin 2) * 2048 + 1 * k.val = k.val; omega

/-- Row `cc` of the deviation-weight block is row `512 t + cc` of the deviation weights. -/
theorem blk_wsig (c : Dev nD) (t : Fin cfg0.N) (cc : Fin 512) (k : Fin 2048) (o : Fin 2048) (ho : o.val = 512 * t.val + cc.val) :
    (iblk m c 2 t : Vec F S512x2048 .f32) (ix2 cc k) = V m c main_arg2 (ix2 o k) := by
  obtain ⟨-, -, -, -, e0, e1, -⟩ := idx_facts t
  show V m c main_arg2 (((cfg0.win 2).blk t).view.emb (ix2 cc k)) = V m c main_arg2 (ix2 o k)
  refine congrArg (V m c main_arg2) ?_
  funext a; apply Fin.ext
  match a with
  | ⟨0, _⟩ => show win0_2.index t (0 : Fin 2) * 512 + 1 * cc.val = o.val; omega
  | ⟨1, _⟩ => show win0_2.index t (1 : Fin 2) * 2048 + 1 * k.val = k.val; omega

/-- The block of the output-noise row is the row. -/
theorem blk_row3 (c : Dev nD) (t : Fin cfg0.N) (k : Fin 2048) :
    (iblk m c 3 t : Vec F S1x2048 .f32) (ix2 (0 : Fin 1) k) = V m c main_call0_v0 (ix2 (0 : Fin 1) k) := by
  obtain ⟨-, -, -, -, -, -, e0, e1, -⟩ := idx_facts t
  show V m c main_call0_v0 (((cfg0.win 3).blk t).view.emb (ix2 (0 : Fin 1) k)) = V m c main_call0_v0 (ix2 (0 : Fin 1) k)
  refine congrArg (V m c main_call0_v0) ?_
  funext a; apply Fin.ext
  match a with
  | ⟨0, _⟩ => show win0_3.index t (0 : Fin 2) * 1 + 1 * 0 = 0; omega
  | ⟨1, _⟩ => show win0_3.index t (1 : Fin 2) * 2048 + 1 * k.val = k.val; omega

/-- The block of the input-noise row is the row. -/
theorem blk_row4 (c : Dev nD) (t : Fin cfg0.N) (k : Fin 2048) :
    (iblk m c 4 t : Vec F S1x2048 .f32) (ix2 (0 : Fin 1) k) = V m c main_call0_v1 (ix2 (0 : Fin 1) k) := by
  obtain ⟨-, -, -, -, -, -, -, -, e0, e1, -⟩ := idx_facts t
  show V m c main_call0_v1 (((cfg0.win 4).blk t).view.emb (ix2 (0 : Fin 1) k)) = V m c main_call0_v1 (ix2 (0 : Fin 1) k)
  refine congrArg (V m c main_call0_v1) ?_
  funext a; apply Fin.ext
  match a with
  | ⟨0, _⟩ => show win0_4.index t (0 : Fin 2) * 1 + 1 * 0 = 0; omega
  | ⟨1, _⟩ => show win0_4.index t (1 : Fin 2) * 2048 + 1 * k.val = k.val; omega

/-- The block of the bias-mean row is the row. -/
theorem blk_row5 (c : Dev nD) (t : Fin cfg0.N) (k : Fin 2048) :
    (iblk m c 5 t : Vec F S1x2048 .f32) (ix2 (0 : Fin 1) k) = V m c main_call0_v2 (ix2 (0 : Fin 1) k) := by
  obtain ⟨-, -, -, -, -, -, -, -, -, -, e0, e1, -⟩ := idx_facts t
  show V m c main_call0_v2 (((cfg0.win 5).blk t).view.emb (ix2 (0 : Fin 1) k)) = V m c main_call0_v2 (ix2 (0 : Fin 1) k)
  refine congrArg (V m c main_call0_v2) ?_
  funext a; apply Fin.ext
  match a with
  | ⟨0, _⟩ => show win0_5.index t (0 : Fin 2) * 1 + 1 * 0 = 0; omega
  | ⟨1, _⟩ => show win0_5.index t (1 : Fin 2) * 2048 + 1 * k.val = k.val; omega

/-- The block of the bias-deviation row is the row. -/
theorem blk_row6 (c : Dev nD) (t : Fin cfg0.N) (k : Fin 2048) :
    (iblk m c 6 t : Vec F S1x2048 .f32) (ix2 (0 : Fin 1) k) = V m c main_call0_v3 (ix2 (0 : Fin 1) k) := by
  obtain ⟨-, -, -, -, -, -, -, -, -, -, -, -, e0, e1, -⟩ := idx_facts t
  show V m c main_call0_v3 (((cfg0.win 6).blk t).view.emb (ix2 (0 : Fin 1) k)) = V m c main_call0_v3 (ix2 (0 : Fin 1) k)
  refine congrArg (V m c main_call0_v3) ?_
  funext a; apply Fin.ext
  match a with
  | ⟨0, _⟩ => show win0_6.index t (0 : Fin 2) * 1 + 1 * 0 = 0; omega
  | ⟨1, _⟩ => show win0_6.index t (1 : Fin 2) * 2048 + 1 * k.val = k.val; omega

/-- The block of the bias-noise row is the row. -/
theorem blk_row7 (c : Dev nD) (t : Fin cfg0.N) (k : Fin 2048) :
    (iblk m c 7 t : Vec F S1x2048 .f32) (ix2 (0 : Fin 1) k) = V m c main_call0_v4 (ix2 (0 : Fin 1) k) := by
  obtain ⟨-, -, -, -, -, -, -, -, -, -, -, -, -, -, e0, e1, -⟩ := idx_facts t
  show V m c main_call0_v4 (((cfg0.win 7).blk t).view.emb (ix2 (0 : Fin 1) k)) = V m c main_call0_v4 (ix2 (0 : Fin 1) k)
  refine congrArg (V m c main_call0_v4) ?_
  funext a; apply Fin.ext
  match a with
  | ⟨0, _⟩ => show win0_7.index t (0 : Fin 2) * 1 + 1 * 0 = 0; omega
  | ⟨1, _⟩ => show win0_7.index t (1 : Fin 2) * 2048 + 1 * k.val = k.val; omega

/-- Entry `(r, cc)` of the output block at point `t` is entry `(r, 512 t + cc)` of the result. -/
theorem out_emb (t : Fin cfg0.N) (r : Fin 1024) (cc : Fin 512) (o : Fin 2048) (ho : o.val = 512 * t.val + cc.val) :
    ((cfg0.win 8).blk t).view.emb (ix2 r cc) = ix2 r o := by
  obtain ⟨-, -, -, -, -, -, -, -, -, -, -, -, -, -, -, -, e0, e1, -⟩ := idx_facts t
  funext a; apply Fin.ext
  match a with
  | ⟨0, _⟩ => show win0_8.index t (0 : Fin 2) * 1024 + 1 * r.val = r.val; omega
  | ⟨1, _⟩ => show win0_8.index t (1 : Fin 2) * 512 + 1 * cc.val = o.val; omega

/-- An index of the result is in point `t`'s output block iff each coordinate is in the block's range on its axis. -/
theorem mem_blk (t : Fin cfg0.N) (i : S1024x2048.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v0).slice (win0_8.rect t)).set ↔ _
  rw [View.set_slice_whole, Rect.mem_set_unit]
  exact Iff.rfl

/-- EVERY INDEX OF THE RESULT is in the output block of a point that writes back: column `o` in that of point `o / 512`. -/
theorem cover (i : S1024x2048.Idx) :
    ∃ t : Fin cfg0.N, (cfg0.win 8).flush t = true ∧ i ∈ ((cfg0.win 8).blk t).view.set := by
  have hN : cfg0.N = 4 := N_0
  have hi0 : (i 0).val < 1024 := idx2_lt0 i
  have hi1 : (i 1).val < 2048 := idx2_lt1 i
  refine ⟨⟨(i 1).val / 512, by omega⟩, flush0_8 _, ?_⟩
  rw [mem_blk]
  obtain ⟨-, -, -, -, -, -, -, -, -, -, -, -, -, -, -, -, e0, e1, -⟩ := idx_facts ⟨(i 1).val / 512, by omega⟩
  intro a
  match a with
  | ⟨0, _⟩ =>
    show win0_8.index _ (0 : Fin 2) * 1024 ≤ (i 0).val ∧ (i 0).val < win0_8.index _ (0 : Fin 2) * 1024 + 1024
    rw [e0]; omega
  | ⟨1, _⟩ =>
    show win0_8.index _ (1 : Fin 2) * 512 ≤ (i 1).val ∧ (i 1).val < win0_8.index _ (1 : Fin 2) * 512 + 512
    rw [e1]; show (i 1).val / 512 * 512 ≤ (i 1).val ∧ (i 1).val < (i 1).val / 512 * 512 + 512; omega

end Cert.KernelIdeal.NoisyValue

end
-- ==== Proof.KernelFinal.lean ====
/-
  THE KERNEL'S RESULT ARRAY, entry by entry, is the layer's formula of the argument arrays: for row `b` and output
  `o`, the sum over the inputs of `x[b, k]` against the effective weight `wmu[o, k] + wsig[o, k] * (eout[o] * ein[k])`,
  plus the effective bias `bmu[o] + bsig[o] * beps[o]`.

  What grid point `t` writes back is its output block after the body, which is the body's arithmetic of its loaded
  blocks; entry `(r, cc)` of that is the formula at `(r, 512 t + cc)`, because there the loaded blocks are rows
  `512 t + cc` of the two weights, all of `x` and of the input noise, and entry `512 t + cc` of the four per-output
  rows, each row being the corresponding vector argument.  So point `t` writes block `t` of one function of the
  result's index, and the four blocks fill the result.
-/
import proofs.«163315_g2000605556667554_pallasbulk_845_24_alg».proof.Proof.Gen.KernelIdeal.Value
import proofs.«163315_g2000605556667554_pallasbulk_845_24_alg».proof.Proof.NoisySpec
import proofs.«163315_g2000605556667554_pallasbulk_845_24_alg».proof.Proof.KernelPayload
import proofs.«163315_g2000605556667554_pallasbulk_845_24_alg».proof.Proof.KernelPiece
import proofs.«163315_g2000605556667554_pallasbulk_845_24_alg».proof.Proof.KernelHost
import proofs.«163315_g2000605556667554_pallasbulk_845_24_alg».proof.Proof.KernelBlocks
import Idealize.ShloMosaic.Lib.ValueIdx
import Idealize.ShloMosaic.Lib.Pipeline.Value

noncomputable section

open Idealize.ShloMosaic Idealize.ShloMosaic.TcCoe Idealize.SL.Sem Idealize.ShloMosaic.ValueIdx

namespace Cert.KernelIdeal.NoisyValue

open Cert.KernelIdeal Cert.KernelIdeal.Gen

variable (m : (ℓ : Loc nD τ sig) → Buf (Elt Ideal) ℓ)

/-- The layer's formula of the argument arrays, by row and output. -/
abbrev spec (c : Dev nD) : Fin 1024 → Fin 2048 → EReal :=
  NoisySpec.fused
    (fun b k => m ((c : Thread nD τ).loc main_arg0) (ix2 b k))
    (fun o k => m ((c : Thread nD τ).loc main_arg1) (ix2 o k))
    (fun o k => m ((c : Thread nD τ).loc main_arg2) (ix2 o k))
    (fun k => m ((c : Thread nD τ).loc main_arg3) (ix1 k))
    (fun o => m ((c : Thread nD τ).loc main_arg4) (ix1 o))
    (fun o => m ((c : Thread nD τ).loc main_arg5) (ix1 o))
    (fun o => m ((c : Thread nD τ).loc main_arg6) (ix1 o))
    (fun o => m ((c : Thread nD τ).loc main_arg7) (ix1 o))

/-- The same as contents of the result array: at index `i`, the formula at row `i 0` and output `i 1`. -/
def result (c : Dev nD) : Buf (Elt Ideal) ((c : Thread nD τ).loc main_v0) := fun i => spec m c (i 0) (i 1)

/-- Entry `(r, cc)` of what point `t`'s body leaves in its output block is the formula at `(r, 512 t + cc)`. -/
theorem point_apply (c : Dev nD) (t : Fin cfg0.N) (r : Fin 1024) (cc : Fin 512) (o : Fin 2048)
    (ho : o.val = 512 * t.val + cc.val) :
    k0_pay1 (F := Ideal) (View.ld (Val := Elt Ideal) (e' := EltTy.f32) (iblk m c 3 t) (cols (grid0.coords t)))
        (iblk m c 4 t) (iblk m c 1 t) (iblk m c 2 t) (iblk m c 0 t)
        (View.ld (Val := Elt Ideal) (e' := EltTy.f32) (iblk m c 5 t) (cols (grid0.coords t)))
        (View.ld (Val := Elt Ideal) (e' := EltTy.f32) (iblk m c 6 t) (cols (grid0.coords t)))
        (View.ld (Val := Elt Ideal) (e' := EltTy.f32) (iblk m c 7 t) (cols (grid0.coords t))) (ix2 r cc)
      = spec m c r o := by
  have hoff : o.val = k0_off1 (grid0.coords t) 1 + cc.val := by
    obtain ⟨-, -, -, -, -, -, -, -, -, -, -, -, -, -, -, -, -, -, e⟩ := idx_facts t
    rw [e]; exact ho
  exact point_eq
    (fun b k => m ((c : Thread nD τ).loc main_arg0) (ix2 b k))
    (fun o k => m ((c : Thread nD τ).loc main_arg1) (ix2 o k))
    (fun o k => m ((c : Thread nD τ).loc main_arg2) (ix2 o k))
    (fun k => m ((c : Thread nD τ).loc main_arg3) (ix1 k))
    (fun o => m ((c : Thread nD τ).loc main_arg4) (ix1 o))
    (fun o => m ((c : Thread nD τ).loc main_arg5) (ix1 o))
    (fun o => m ((c : Thread nD τ).loc main_arg6) (ix1 o))
    (fun o => m ((c : Thread nD τ).loc main_arg7) (ix1 o))
    (iblk m c 0 t) (iblk m c 1 t) (iblk m c 2 t) (iblk m c 3 t) (iblk m c 4 t) (iblk m c 5 t) (iblk m c 6 t) (iblk m c 7 t)
    (k0_off1 (grid0.coords t)) (k0_off1_inb (grid0.coords t)) r cc o hoff
    (fun k => (blk_x m c t r k).trans (congrFun (V_main_arg0 m c) (ix2 r k)))
    (fun k => (blk_wmu m c t cc k o ho).trans (congrFun (V_main_arg1 m c) (ix2 o k)))
    (fun k => (blk_wsig m c t cc k o ho).trans (congrFun (V_main_arg2 m c) (ix2 o k)))
    ((blk_row3 m c t o).trans (row_eout_apply m c o))
    (fun k => (blk_row4 m c t k).trans (row_ein_apply m c k))
    ((blk_row5 m c t o).trans (row_bmu_apply m c o))
    ((blk_row6 m c t o).trans (row_bsig_apply m c o))
    ((blk_row7 m c t o).trans (row_beps_apply m c o))

/-- WHAT POINT `t` WRITES BACK is block `t` of `result`. -/
theorem flushed_eq (c : Dev nD) (t : Fin cfg0.N) :
    (dats m 0 c).flushed 8 t = ((cfg0.win 8).blk t).view.read (Elt Ideal) (result m c) := by
  rw [Value.flushed8_A, block_eq]
  refine block_ext _ _ fun r cc => ?_
  have hlt := point_lt t
  have ho : (⟨512 * t.val + cc.val, by omega⟩ : Fin 2048).val = 512 * t.val + cc.val := rfl
  show k0_pay1 (F := Ideal) (View.ld (Val := Elt Ideal) (e' := EltTy.f32) (iblk m c 3 t) (cols (grid0.coords t)))
        (iblk m c 4 t) (iblk m c 1 t) (iblk m c 2 t) (iblk m c 0 t)
        (View.ld (Val := Elt Ideal) (e' := EltTy.f32) (iblk m c 5 t) (cols (grid0.coords t)))
        (View.ld (Val := Elt Ideal) (e' := EltTy.f32) (iblk m c 6 t) (cols (grid0.coords t)))
        (View.ld (Val := Elt Ideal) (e' := EltTy.f32) (iblk m c 7 t) (cols (grid0.coords t))) (ix2 r cc)
      = result m c (((cfg0.win 8).blk t).view.emb (ix2 r cc))
  rw [out_emb t r cc _ ho]
  exact point_apply m c t r cc _ ho

/-- THE RESULT ARRAY after the run is `result`: the four points' blocks fill it. -/
theorem final (c : Dev nD) : (dats m 0 c).arrAt 8 cfg0.N = result m c :=
  (dats m 0 c).arrAt_eq_of_cover 8 (result m c) (fun t _ => flushed_eq m c t) cover

/-- THE RESULT AT ROW `b` AND OUTPUT `o` is the layer's formula of the argument arrays there. -/
theorem final_apply (m : (ℓ : Loc nD τ sig) → Buf (Elt Ideal) ℓ) (c : Dev nD) (b : Fin 1024) (o : Fin 2048) :
    (dats (F := Ideal) m 0 c).arrAt 8 cfg0.N (ix2 b o)
      = NoisySpec.fused
          (fun b k => m ((c : Thread nD τ).loc main_arg0) (ix2 b k))
          (fun o k => m ((c : Thread nD τ).loc main_arg1) (ix2 o k))
          (fun o k => m ((c : Thread nD τ).loc main_arg2) (ix2 o k))
          (fun k => m ((c : Thread nD τ).loc main_arg3) (ix1 k))
          (fun o => m ((c : Thread nD τ).loc main_arg4) (ix1 o))
          (fun o => m ((c : Thread nD τ).loc main_arg5) (ix1 o))
          (fun o => m ((c : Thread nD τ).loc main_arg6) (ix1 o))
          (fun o => m ((c : Thread nD τ).loc main_arg7) (ix1 o)) b o := by
  rw [final m c]
  rfl

end Cert.KernelIdeal.NoisyValue

end
-- ==== Proof.RefPayload.lean ====
/-
  The reference body's four stored values, read at one entry `(r, cc)` of the 256×512 accumulator block,
  over the extended reals.

  The body works on a block `xb` of 256 rows of `x` by 1024 inputs, blocks `wm`, `ws` of 512 output channels of
  the two weight matrices by the same 1024 inputs, the 1×1024 slice `ei` of `eps_in`, and the 1×512 slices `eo`
  of `eps_out` and `bi` of the bias.  It stores, in order:
    * zero (only at the first half of the input axis);
    * the accumulator plus the mean path `∑ k, xb (r, k) * wm (cc, k)`;
    * that plus the noise path `(∑ k, (xb (r, k) * ei (0, k)) * ws (cc, k)) * eo (0, cc)`;
    * and (only at the last half) the accumulator plus the bias `bi (0, cc)` into the output block.
  A product of a 256×1024 by a 512×1024 matrix contracted along the 1024 inputs of both, into a zero
  accumulator, is that plain sum; a 1×n row broadcast over the rows reads its column entry.
-/
import proofs.«163315_g2000605556667554_pallasbulk_845_24_alg».proof.Proof.Gen.ReferenceIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx

namespace Cert.ReferenceIdeal.NoisyValue

open Cert.ReferenceIdeal Cert.ReferenceIdeal.Gen

/-- The product of `a` (256×1024) with `w` (512×1024), contracted along the 1024 inputs of both, into the zero
    block: at `(r, cc)` the sum over the inputs of `a (r, k) * w (cc, k)`. -/
theorem matmul_apply (a : FVec Ideal S256x1024 .f32) (w : FVec Ideal S512x1024 .f32) (r : Fin 256) (cc : Fin 512) :
    matmul dot_S256x1024_S512x1024_S256x512_1_1_0_0_n_n none a w (constant S256x512 .f32 0x00000000#32) (ix2 r cc)
      = ∑ k : Fin 1024, a (ix2 r k) * w (ix2 cc k) := by
  show FloatOps.matmul dot_S256x1024_S512x1024_S256x512_1_1_0_0_n_n none a w _ (ix2 r cc) = _
  rw [Ideal.matmul_constant_zero_apply, ← Equiv.sum_comp (contrEquiv1 dot_S256x1024_S512x1024_S256x512_1_1_0_0_n_n 1024 rfl rfl).symm]
  refine Finset.sum_congr rfl fun k _ => ?_
  have ck := contrEquiv1_symm_val dot_S256x1024_S512x1024_S256x512_1_1_0_0_n_n 1024 rfl rfl k
  have hl : dot_S256x1024_S512x1024_S256x512_1_1_0_0_n_n.lhsIdx (ix2 r cc) ((contrEquiv1 dot_S256x1024_S512x1024_S256x512_1_1_0_0_n_n 1024 rfl rfl).symm k) = ix2 r k := by
    funext ax; apply Fin.ext
    match ax with
    | ⟨0, _⟩ => simp [DotDims.lhsIdx, dot_S256x1024_S512x1024_S256x512_1_1_0_0_n_n]; rfl
    | ⟨1, _⟩ => simp [DotDims.lhsIdx, dot_S256x1024_S512x1024_S256x512_1_1_0_0_n_n]; exact ck
  have hr : dot_S256x1024_S512x1024_S256x512_1_1_0_0_n_n.rhsIdx (ix2 r cc) ((contrEquiv1 dot_S256x1024_S512x1024_S256x512_1_1_0_0_n_n 1024 rfl rfl).symm k) = ix2 cc k := by
    funext ax; apply Fin.ext
    match ax with
    | ⟨0, _⟩ => simp [DotDims.rhsIdx, dot_S256x1024_S512x1024_S256x512_1_1_0_0_n_n]; rfl
    | ⟨1, _⟩ => simp [DotDims.rhsIdx, dot_S256x1024_S512x1024_S256x512_1_1_0_0_n_n]; exact ck
  rw [hl, hr]

/-- The first store is the zero block. -/
theorem pay1_apply (y : S256x512.Idx) : k0_pay1 (F := Ideal) y = 0 := by
  unfold k0_pay1
  rw [shapeCast_self]
  exact Ideal.ofBits_zero_f32

/-- The second store adds the mean path of this half of the inputs onto the accumulator. -/
theorem pay2_apply (xb : Vec Ideal S256x1024 .f32) (acc : Vec Ideal S256x512 .f32) (wm : Vec Ideal S512x1024 .f32)
    (r : Fin 256) (cc : Fin 512) :
    k0_pay2 xb acc wm (ix2 r cc) = acc (ix2 r cc) + ∑ k : Fin 1024, xb (ix2 r k) * wm (ix2 cc k) := by
  unfold k0_pay2
  rw [shapeCast_self, addf_apply, matmul_apply]

/-- The third store adds the noise path of this half, scaled by the output channel's `eps_out`. -/
theorem pay3_apply (xb : Vec Ideal S256x1024 .f32) (acc : Vec Ideal S256x512 .f32) (ei : Vec Ideal S1x1024 .f32)
    (ws : Vec Ideal S512x1024 .f32) (eo : Vec Ideal S1x512 .f32) (r : Fin 256) (cc : Fin 512) :
    k0_pay3 xb acc ei ws eo (ix2 r cc)
      = acc (ix2 r cc) + (∑ k : Fin 1024, (xb (ix2 r k) * ei (ix2 (0 : Fin 1) k)) * ws (ix2 cc k)) * eo (ix2 (0 : Fin 1) cc) := by
  unfold k0_pay3
  rw [shapeCast_self, addf_apply, mulf_apply, matmul_apply, shapeCast_self, shapeCast_self, broadcastTo_1b_ab_apply]
  refine congrArg (fun s => acc (ix2 r cc) + s * eo (ix2 (0 : Fin 1) cc)) (Finset.sum_congr rfl fun k _ => ?_)
  rw [mulf_apply, broadcastTo_1b_ab_apply]

/-- The last store adds the bias of the output channel onto the accumulator. -/
theorem pay4_apply (acc : Vec Ideal S256x512 .f32) (bi : Vec Ideal S1x512 .f32) (r : Fin 256) (cc : Fin 512) :
    k0_pay4 acc bi (ix2 r cc) = acc (ix2 r cc) + bi (ix2 (0 : Fin 1) cc) := by
  unfold k0_pay4
  rw [addf_apply, shapeCast_self, broadcastTo_1b_ab_apply]

end Cert.ReferenceIdeal.NoisyValue

end
-- ==== Proof.RefPieces.lean ====
/-
  What one run of the reference body leaves behind, as values of the blocks it was given.

  The body keeps a 256×512 accumulator in a scratch buffer that lives on from one grid point to the next.  At a
  point on the FIRST half of the input axis it stores zero, then the accumulator plus the mean path, then that plus
  the scaled noise path; each later store reads the whole buffer the earlier one wrote.  So the accumulator ends at
  the third stored value computed over the second computed over zero (`acc_first`).  At a point on the LAST half
  the zero store is skipped and the chain starts from what the point before left (`acc_last`); the body then adds
  the bias row and stores the result whole into the output block (`out_last`).  Every store and every load goes
  through the whole buffer, so a load after stores reads the last stored value.
-/
import proofs.«163315_g2000605556667554_pallasbulk_845_24_alg».proof.Proof.Gen.ReferenceIdeal.Frame
import Idealize.ShloMosaic.Lib.Pipeline.Value
import Idealize.ShloMosaic.Lib.Tactic

noncomputable section

open Idealize.ShloMosaic Idealize.ShloMosaic.TcCoe Idealize.SL.Sem Idealize.ShloMosaic.Tactic

namespace Cert.ReferenceIdeal.NoisyValue

open Cert.ReferenceIdeal Cert.ReferenceIdeal.Gen

variable {F : FTy → Type} [FloatOps F]

/-- The two zero offsets of a whole-buffer rectangle. -/
theorem hz : (![0, 0] : Fin 2 → Nat) = fun _ => 0 := funext fun a => by fin_cases a <;> rfl

/-- A load through the whole buffer, after stores of which the LAST went through the whole buffer, reads that last
    store's value, whatever the earlier stores were. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- THE ACCUMULATOR AFTER A FIRST-HALF POINT: the noise-path store over the mean-path store over zero. -/
theorem acc_first (c : Dev nD) (i : grid0.Coords) (a3 : Memref sig .tc .vmem S256x1024 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (a7 : Memref sig .tc .vmem S1x512 .f32) (h7 : a7.IsWhole) (a8 : Memref sig .tc .vmem S1x512 .f32) (h8 : a8.IsWhole) (a9 : Memref sig .tc .vmem S256x512 .f32) (h9 : a9.IsWhole) (a10 : Memref sig .tc .vmem S256x512 .f32) (h10 : a10.IsWhole) (hc0 : cond0_0 i) (hc1 : ¬cond0_1 i)
    (x0 : Vec F S256x1024 .f32) (x1 : Vec F S512x1024 .f32) (x2 : Vec F S512x1024 .f32) (x3 : Vec F S1x1024 .f32) (x4 : Vec F S1x512 .f32) (x5 : Vec F S1x512 .f32) :
    sout0_A_0 c i a3 h3 a4 h4 a5 h5 a6 h6 a7 h7 a8 h8 a9 h9 a10 h10 hc0 hc1 x0 x1 x2 x3 x4 x5 = k0_pay3 x0 (k0_pay2 x0 k0_pay1 x1) x3 x2 x4 := by
  unfold sout0_A_0
  rw [View.read_writes_eq_canon _ _ _ (scover0_A_0 c i a3 h3 a4 h4 a5 h5 a6 h6 a7 h7 a8 h8 a9 h9 a10 h10 hc0 hc1 x0 x1 x2 x3 x4 x5)]
  unfold kernelRun0_A
  dsimp only
  sl_unfold_words
  rw [View.canon_cons_unit_zero (S := S256x512) hz, readCov_cons_whole (S := S256x512) _ hz,
    View.readCov_unit_zero (S := S256x512) _ hz]
  simp only [View.readAt_eq_ld, h3.read_unread, h4.read_unread, h5.read_unread, h6.read_unread, h7.read_unread, h8.read_unread, h10.read_unread,
    View.ld_unit_zero (S := S256x1024) hz, View.ld_unit_zero (S := S512x1024) hz, View.ld_unit_zero (S := S1x1024) hz,
    View.ld_unit_zero (S := S1x512) hz, View.ld_unit_zero (S := S256x512) hz]

/-- THE ACCUMULATOR AFTER A LAST-HALF POINT: the same two stores over what the point before left (`xs0`). -/
theorem acc_last (c : Dev nD) (i : grid0.Coords) (a3 : Memref sig .tc .vmem S256x1024 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (a7 : Memref sig .tc .vmem S1x512 .f32) (h7 : a7.IsWhole) (a8 : Memref sig .tc .vmem S1x512 .f32) (h8 : a8.IsWhole) (a9 : Memref sig .tc .vmem S256x512 .f32) (h9 : a9.IsWhole) (a10 : Memref sig .tc .vmem S256x512 .f32) (h10 : a10.IsWhole) (hc0 : ¬cond0_0 i) (hc1 : cond0_1 i)
    (x0 : Vec F S256x1024 .f32) (x1 : Vec F S512x1024 .f32) (x2 : Vec F S512x1024 .f32) (x3 : Vec F S1x1024 .f32) (x4 : Vec F S1x512 .f32) (x5 : Vec F S1x512 .f32) (xs0 : Vec F S256x512 .f32) :
    sout0_B_0 c i a3 h3 a4 h4 a5 h5 a6 h6 a7 h7 a8 h8 a9 h9 a10 h10 hc0 hc1 x0 x1 x2 x3 x4 x5 xs0 = k0_pay3 x0 (k0_pay2 x0 xs0 x1) x3 x2 x4 := by
  unfold sout0_B_0
  rw [View.read_writes_eq_canon _ _ _ (scover0_B_0 c i a3 h3 a4 h4 a5 h5 a6 h6 a7 h7 a8 h8 a9 h9 a10 h10 hc0 hc1 x0 x1 x2 x3 x4 x5 xs0)]
  unfold kernelRun0_B
  dsimp only
  sl_unfold_words
  rw [View.canon_cons_unit_zero (S := S256x512) hz, View.readCov_unit_zero (S := S256x512) _ hz]
  simp only [View.readAt_eq_ld, h3.read_unread, h4.read_unread, h5.read_unread, h6.read_unread, h7.read_unread, h8.read_unread, h10.read_unread,
    View.ld_unit_zero (S := S256x1024) hz, View.ld_unit_zero (S := S512x1024) hz, View.ld_unit_zero (S := S1x1024) hz,
    View.ld_unit_zero (S := S1x512) hz, View.ld_unit_zero (S := S256x512) hz]

/-- THE OUTPUT BLOCK AFTER A LAST-HALF POINT: that accumulator plus the bias row. -/
theorem out_last (c : Dev nD) (i : grid0.Coords) (a3 : Memref sig .tc .vmem S256x1024 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (a7 : Memref sig .tc .vmem S1x512 .f32) (h7 : a7.IsWhole) (a8 : Memref sig .tc .vmem S1x512 .f32) (h8 : a8.IsWhole) (a9 : Memref sig .tc .vmem S256x512 .f32) (h9 : a9.IsWhole) (a10 : Memref sig .tc .vmem S256x512 .f32) (h10 : a10.IsWhole) (hc0 : ¬cond0_0 i) (hc1 : cond0_1 i)
    (x0 : Vec F S256x1024 .f32) (x1 : Vec F S512x1024 .f32) (x2 : Vec F S512x1024 .f32) (x3 : Vec F S1x1024 .f32) (x4 : Vec F S1x512 .f32) (x5 : Vec F S1x512 .f32) (xs0 : Vec F S256x512 .f32) :
    out0_B_6 c i a3 h3 a4 h4 a5 h5 a6 h6 a7 h7 a8 h8 a9 h9 a10 h10 hc0 hc1 x0 x1 x2 x3 x4 x5 xs0
      = k0_pay4 (k0_pay3 x0 (k0_pay2 x0 xs0 x1) x3 x2 x4) x5 := by
  unfold out0_B_6
  rw [View.read_writes_eq_canon _ _ _ (cover0_B_6 c i a3 h3 a4 h4 a5 h5 a6 h6 a7 h7 a8 h8 a9 h9 a10 h10 hc0 hc1 x0 x1 x2 x3 x4 x5 xs0)]
  unfold kernelRun0_B
  dsimp only
  sl_unfold_words
  rw [View.canon_unit_zero (S := S256x512) hz, readCov_cons_whole (S := S256x512) _ hz,
    View.readCov_unit_zero (S := S256x512) _ hz]
  simp only [View.readAt_eq_ld, h3.read_unread, h4.read_unread, h5.read_unread, h6.read_unread, h7.read_unread, h8.read_unread, h10.read_unread,
    View.ld_unit_zero (S := S256x1024) hz, View.ld_unit_zero (S := S512x1024) hz, View.ld_unit_zero (S := S1x1024) hz,
    View.ld_unit_zero (S := S1x512) hz, View.ld_unit_zero (S := S256x512) hz]

end Cert.ReferenceIdeal.NoisyValue

end
-- ==== Proof.RefBlocks.lean ====
/-
  Where the reference body's blocks sit in the argument arrays.

  The grid has 4 × 4 × 2 points `(i, j, h)`: row block `i` of 256 rows, output-channel block `j` of 512
  channels, half `h` of the input axis (1024 inputs each); point number `t = 8 i + 2 j + h`, so the last-half
  points are the odd ones and the point before a last-half point is the first-half point of the same `(i, j)`.
  At point `(i, j, h)` the body is given rows `256 i + ·` and inputs `1024 h + ·` of `x`, channels `512 j + ·`
  and the same inputs of the two weight matrices, inputs `1024 h + ·` of the `eps_in` row and channels
  `512 j + ·` of the `eps_out` row and of the bias row; the output block is rows `256 i + ·`, channels
  `512 j + ·`.  A block's entry sits in its array, on each axis, at block index × block size + its own coordinate.
  The three rows are made before the grid runs: `eps_in` and `eps_out` reshaped from 2048 to 1×2048, and the
  bias row the reshape of `bias_mu + bias_sigma * bias_epsilon`.
-/
import proofs.«163315_g2000605556667554_pallasbulk_845_24_alg».proof.Proof.Gen.ReferenceIdeal.Frame
import Idealize.ShloMosaic.Lib.ValueIdx
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.StableHlo

namespace Cert.ReferenceIdeal.NoisyValue

open Cert.ReferenceIdeal Cert.ReferenceIdeal.Gen

/-! ## The index maps, decided over the 32 grid points -/

/-- At a last-half point every window's block index, in terms of the output's `(i, j)`. -/
theorem idx_last : ∀ t : Fin cfg0.N, t.val % 2 = 1 →
    win0_0.index t (0 : Fin 2) = win0_6.index t (0 : Fin 2) ∧ win0_0.index t (1 : Fin 2) = 1
    ∧ win0_1.index t (0 : Fin 2) = win0_6.index t (1 : Fin 2) ∧ win0_1.index t (1 : Fin 2) = 1
    ∧ win0_2.index t (0 : Fin 2) = win0_6.index t (1 : Fin 2) ∧ win0_2.index t (1 : Fin 2) = 1
    ∧ win0_3.index t (0 : Fin 2) = 0 ∧ win0_3.index t (1 : Fin 2) = 1
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2)
    ∧ win0_6.index t (0 : Fin 2) ≤ 3 ∧ win0_6.index t (1 : Fin 2) ≤ 3 :=
  (by decide +kernel : ∀ t : Fin grid0.N, _)

/-- At the point `s` before a last-half point `t`: the same `(i, j)`, the first half of the inputs. -/
theorem idx_first : ∀ t s : Fin cfg0.N, s.val + 1 = t.val → t.val % 2 = 1 →
    win0_0.index s (0 : Fin 2) = win0_6.index t (0 : Fin 2) ∧ win0_0.index s (1 : Fin 2) = 0
    ∧ win0_1.index s (0 : Fin 2) = win0_6.index t (1 : Fin 2) ∧ win0_1.index s (1 : Fin 2) = 0
    ∧ win0_2.index s (0 : Fin 2) = win0_6.index t (1 : Fin 2) ∧ win0_2.index s (1 : Fin 2) = 0
    ∧ win0_3.index s (0 : Fin 2) = 0 ∧ win0_3.index s (1 : Fin 2) = 0
    ∧ win0_4.index s (0 : Fin 2) = 0 ∧ win0_4.index s (1 : Fin 2) = win0_6.index t (1 : Fin 2) :=
  (by decide +kernel : ∀ t s : Fin grid0.N, _)

/-- Every output block `(i, j)` is some last-half point's. -/
theorem idx_onto : ∀ (q0 : Fin 4) (q1 : Fin 4), ∃ t : Fin cfg0.N, t.val % 2 = 1 ∧ win0_6.index t = ![q0.val, q1.val] :=
  (by decide +kernel : ∀ (q0 : Fin 4) (q1 : Fin 4), ∃ t : Fin grid0.N, t.val % 2 = 1 ∧ win0_6.index t = ![q0.val, q1.val])

/-! ## The rows made before the grid runs -/

variable (m : (ℓ : Loc nD τ sig) → Buf (Elt Ideal) ℓ)

/-- A vector of 2048 entries reshaped to one row of 2048 reads, at `(0, o)`, its entry `o`. -/
theorem row_apply (v : S2048.Idx → EReal) (h : S2048.ShapeCasts S1x2048) (o : Fin 2048) :
    shapeCast S1x2048 v h (ix2 (0 : Fin 1) o) = v (ix1 o) := by
  refine shapeCast_apply v h (ix2 (0 : Fin 1) o) (ix1 o) ?_
  rw [Shape.rowMajor_val_one, Shape.rowMajor_val_two]
  show o.val = 0 * 2048 + o.val
  omega

/-- The `eps_in` row the grid finds, at `(0, k)`. -/
theorem ein_row_apply (c : Dev nD) (k : Fin 2048) :
    (V m c main_call0_v0 : S1x2048.Idx → EReal) (ix2 (0 : Fin 1) k) = m ((c : Thread nD τ).loc main_arg3) (ix1 k) := by
  have e : (V m c main_call0_v0 : S1x2048.Idx → EReal)
      = shapeCast S1x2048 (m ((c : Thread nD τ).loc main_arg3)) shapeCasts_S2048_S1x2048 := by
    dsimp only [V, hostOps0]; after_results; rfl
  rw [e, row_apply]

/-- The `eps_out` row the grid finds, at `(0, o)`. -/
theorem eout_row_apply (c : Dev nD) (o : Fin 2048) :
    (V m c main_call0_v1 : S1x2048.Idx → EReal) (ix2 (0 : Fin 1) o) = m ((c : Thread nD τ).loc main_arg4) (ix1 o) := by
  have e : (V m c main_call0_v1 : S1x2048.Idx → EReal)
      = shapeCast S1x2048 (m ((c : Thread nD τ).loc main_arg4)) shapeCasts_S2048_S1x2048 := by
    dsimp only [V, hostOps0]; after_results; rfl
  rw [e, row_apply]

/-- The bias row the grid finds, at `(0, o)`: `bias_mu o + bias_sigma o * bias_epsilon o` (the three vectors
    named, so that the sum and the product are the extended reals'). -/
theorem bias_row_apply (c : Dev nD) (o : Fin 2048) (bmu bsig beps : S2048.Idx → EReal)
    (h5 : bmu = m ((c : Thread nD τ).loc main_arg5)) (h6 : bsig = m ((c : Thread nD τ).loc main_arg6)) (h7 : beps = m ((c : Thread nD τ).loc main_arg7)) :
    (V m c main_call0_v4 : S1x2048.Idx → EReal) (ix2 (0 : Fin 1) o) = bmu (ix1 o) + bsig (ix1 o) * beps (ix1 o) := by
  have e : (V m c main_call0_v4 : S1x2048.Idx → EReal)
      = shapeCast S1x2048 (addf (F := Ideal) (φ := .f32) bmu (mulf (F := Ideal) (φ := .f32) bsig beps)) shapeCasts_S2048_S1x2048 := by
    subst h5 h6 h7
    dsimp only [V, hostOps0]; after_results; rfl
  rw [e, row_apply, addf_apply, mulf_apply]

/-! ## A block's entry is an array's entry -/

/-- The block of \`x\` at a point. -/
theorem blk0_apply (c : Dev nD) (t : Fin cfg0.N) (p : Fin 256) (q : Fin 1024) (P : Fin 1024) (Q : Fin 2048)
    (hP : win0_0.index t (0 : Fin 2) * 256 + p.val = P.val) (hQ : win0_0.index t (1 : Fin 2) * 1024 + q.val = Q.val) :
    (iblk m c 0 t : Vec Ideal S256x1024 .f32) (ix2 p q) = m ((c : Thread nD τ).loc main_arg0) (ix2 P Q) := by
  show V m c main_arg0 (((cfg0.win 0).blk t).view.emb (ix2 p q)) = _
  rw [V_main_arg0]
  refine congrArg _ (funext fun a => Fin.ext ?_)
  match a with
  | ⟨0, _⟩ => show win0_0.index t (0 : Fin 2) * 256 + 1 * p.val = P.val; omega
  | ⟨1, _⟩ => show win0_0.index t (1 : Fin 2) * 1024 + 1 * q.val = Q.val; omega

/-- The block of \`weight_mu\` at a point. -/
theorem blk1_apply (c : Dev nD) (t : Fin cfg0.N) (p : Fin 512) (q : Fin 1024) (P : Fin 2048) (Q : Fin 2048)
    (hP : win0_1.index t (0 : Fin 2) * 512 + p.val = P.val) (hQ : win0_1.index t (1 : Fin 2) * 1024 + q.val = Q.val) :
    (iblk m c 1 t : Vec Ideal S512x1024 .f32) (ix2 p q) = m ((c : Thread nD τ).loc main_arg1) (ix2 P Q) := by
  show V m c main_arg1 (((cfg0.win 1).blk t).view.emb (ix2 p q)) = _
  rw [V_main_arg1]
  refine congrArg _ (funext fun a => Fin.ext ?_)
  match a with
  | ⟨0, _⟩ => show win0_1.index t (0 : Fin 2) * 512 + 1 * p.val = P.val; omega
  | ⟨1, _⟩ => show win0_1.index t (1 : Fin 2) * 1024 + 1 * q.val = Q.val; omega

/-- The block of \`weight_sigma\` at a point. -/
theorem blk2_apply (c : Dev nD) (t : Fin cfg0.N) (p : Fin 512) (q : Fin 1024) (P : Fin 2048) (Q : Fin 2048)
    (hP : win0_2.index t (0 : Fin 2) * 512 + p.val = P.val) (hQ : win0_2.index t (1 : Fin 2) * 1024 + q.val = Q.val) :
    (iblk m c 2 t : Vec Ideal S512x1024 .f32) (ix2 p q) = m ((c : Thread nD τ).loc main_arg2) (ix2 P Q) := by
  show V m c main_arg2 (((cfg0.win 2).blk t).view.emb (ix2 p q)) = _
  rw [V_main_arg2]
  refine congrArg _ (funext fun a => Fin.ext ?_)
  match a with
  | ⟨0, _⟩ => show win0_2.index t (0 : Fin 2) * 512 + 1 * p.val = P.val; omega
  | ⟨1, _⟩ => show win0_2.index t (1 : Fin 2) * 1024 + 1 * q.val = Q.val; omega

/-- The block of the \`eps_in\` row at a point. -/
theorem blk3_apply (c : Dev nD) (t : Fin cfg0.N) (q : Fin 1024) (Q : Fin 2048)
    (h0 : win0_3.index t (0 : Fin 2) = 0) (hQ : win0_3.index t (1 : Fin 2) * 1024 + q.val = Q.val) :
    (iblk m c 3 t : Vec Ideal S1x1024 .f32) (ix2 (0 : Fin 1) q) = (V m c main_call0_v0 : S1x2048.Idx → EReal) (ix2 (0 : Fin 1) Q) := by
  show V m c main_call0_v0 (((cfg0.win 3).blk t).view.emb (ix2 (0 : Fin 1) q)) = _
  refine congrArg _ (funext fun a => Fin.ext ?_)
  match a with
  | ⟨0, _⟩ => show win0_3.index t (0 : Fin 2) * 1 + 1 * 0 = 0; omega
  | ⟨1, _⟩ => show win0_3.index t (1 : Fin 2) * 1024 + 1 * q.val = Q.val; omega

/-- The block of the \`eps_out\` row at a point. -/
theorem blk4_apply (c : Dev nD) (t : Fin cfg0.N) (q : Fin 512) (Q : Fin 2048)
    (h0 : win0_4.index t (0 : Fin 2) = 0) (hQ : win0_4.index t (1 : Fin 2) * 512 + q.val = Q.val) :
    (iblk m c 4 t : Vec Ideal S1x512 .f32) (ix2 (0 : Fin 1) q) = (V m c main_call0_v1 : S1x2048.Idx → EReal) (ix2 (0 : Fin 1) Q) := by
  show V m c main_call0_v1 (((cfg0.win 4).blk t).view.emb (ix2 (0 : Fin 1) q)) = _
  refine congrArg _ (funext fun a => Fin.ext ?_)
  match a with
  | ⟨0, _⟩ => show win0_4.index t (0 : Fin 2) * 1 + 1 * 0 = 0; omega
  | ⟨1, _⟩ => show win0_4.index t (1 : Fin 2) * 512 + 1 * q.val = Q.val; omega

/-- The block of the bias row at a point. -/
theorem blk5_apply (c : Dev nD) (t : Fin cfg0.N) (q : Fin 512) (Q : Fin 2048)
    (h0 : win0_5.index t (0 : Fin 2) = 0) (hQ : win0_5.index t (1 : Fin 2) * 512 + q.val = Q.val) :
    (iblk m c 5 t : Vec Ideal S1x512 .f32) (ix2 (0 : Fin 1) q) = (V m c main_call0_v4 : S1x2048.Idx → EReal) (ix2 (0 : Fin 1) Q) := by
  show V m c main_call0_v4 (((cfg0.win 5).blk t).view.emb (ix2 (0 : Fin 1) q)) = _
  refine congrArg _ (funext fun a => Fin.ext ?_)
  match a with
  | ⟨0, _⟩ => show win0_5.index t (0 : Fin 2) * 1 + 1 * 0 = 0; omega
  | ⟨1, _⟩ => show win0_5.index t (1 : Fin 2) * 512 + 1 * q.val = Q.val; omega

end Cert.ReferenceIdeal.NoisyValue

end
-- ==== Proof.RefValue.lean ====
/-
  The reference's result array, as ONE function of the argument arrays.

  The output block `(i, j)` is written back once, after the last-half point of `(i, j)`.  What that point writes
  is its accumulator plus the bias row, and its accumulator is the two stores of the last half over what the point
  before — the first-half point of the same `(i, j)` — left, which is the two stores of the first half over zero.
  Read at entry `(r, cc)` of the block and with every block entry traced to its array entry (row `256 i + r`,
  channel `512 j + cc`, inputs `1024 h + k`), that is `NoisySpec.split` of the arguments at that row and channel.
  The sixteen output blocks tile the array — row `b` and channel `o` lie in block `(b / 256, o / 512)` — so the
  whole array ends holding `NoisySpec.split`.
-/
import proofs.«163315_g2000605556667554_pallasbulk_845_24_alg».proof.Proof.Gen.ReferenceIdeal.Value
import proofs.«163315_g2000605556667554_pallasbulk_845_24_alg».proof.Proof.RefPayload
import proofs.«163315_g2000605556667554_pallasbulk_845_24_alg».proof.Proof.RefPieces
import proofs.«163315_g2000605556667554_pallasbulk_845_24_alg».proof.Proof.RefBlocks
import proofs.«163315_g2000605556667554_pallasbulk_845_24_alg».proof.Proof.NoisySpec

noncomputable section

open Idealize.ShloMosaic Idealize.ShloMosaic.TcCoe Idealize.SL.Sem Idealize.ShloMosaic.ValueIdx
open Idealize.ShloMosaic.Pipeline (Dat)

namespace Cert.ReferenceIdeal.NoisyValue

open Cert.ReferenceIdeal Cert.ReferenceIdeal.Gen

/-- The output block's entry `(r, cc)` after a last-half point, over the blocks `X·'` of the point before and
    the blocks `X·` of the point itself: the four partial sums added one after the other onto zero, plus the bias. -/
theorem chain_apply (X0' : Vec Ideal S256x1024 .f32) (X1' X2' : Vec Ideal S512x1024 .f32) (X3' : Vec Ideal S1x1024 .f32)
    (X4' : Vec Ideal S1x512 .f32) (X0 : Vec Ideal S256x1024 .f32) (X1 X2 : Vec Ideal S512x1024 .f32)
    (X3 : Vec Ideal S1x1024 .f32) (X4 X5 : Vec Ideal S1x512 .f32) (r : Fin 256) (cc : Fin 512) :
    k0_pay4 (k0_pay3 X0 (k0_pay2 X0 (k0_pay3 X0' (k0_pay2 X0' (k0_pay1 (F := Ideal)) X1') X3' X2' X4') X1) X3 X2 X4) X5 (ix2 r cc)
      = ((((0 + ∑ k : Fin 1024, X0' (ix2 r k) * X1' (ix2 cc k))
            + (∑ k : Fin 1024, (X0' (ix2 r k) * X3' (ix2 (0 : Fin 1) k)) * X2' (ix2 cc k)) * X4' (ix2 (0 : Fin 1) cc))
          + ∑ k : Fin 1024, X0 (ix2 r k) * X1 (ix2 cc k))
          + (∑ k : Fin 1024, (X0 (ix2 r k) * X3 (ix2 (0 : Fin 1) k)) * X2 (ix2 cc k)) * X4 (ix2 (0 : Fin 1) cc))
        + X5 (ix2 (0 : Fin 1) cc) := by
  rw [pay4_apply, pay3_apply, pay2_apply, pay3_apply, pay2_apply, pay1_apply]

variable (m : (ℓ : Loc nD τ sig) → Buf (Elt Ideal) ℓ)

/-- THE RESULT: at row `b`, channel `o`, the split arrangement of the argument arrays. -/
def result (c : Dev nD) : S1024x2048.Idx → EReal := fun i =>
  NoisySpec.split
          (fun b k => m ((c : Thread nD τ).loc main_arg0) (ix2 b k))
          (fun o k => m ((c : Thread nD τ).loc main_arg1) (ix2 o k))
          (fun o k => m ((c : Thread nD τ).loc main_arg2) (ix2 o k))
          (fun k => m ((c : Thread nD τ).loc main_arg3) (ix1 k))
          (fun o => m ((c : Thread nD τ).loc main_arg4) (ix1 o))
          (fun o => m ((c : Thread nD τ).loc main_arg5) (ix1 o))
          (fun o => m ((c : Thread nD τ).loc main_arg6) (ix1 o))
          (fun o => m ((c : Thread nD τ).loc main_arg7) (ix1 o))
          ⟨(i 0).val, idx2_lt0 i⟩ ⟨(i 1).val, idx2_lt1 i⟩

theorem result_apply (c : Dev nD) (b : Fin 1024) (o : Fin 2048) :
    result m c (ix2 b o) = NoisySpec.split
          (fun b k => m ((c : Thread nD τ).loc main_arg0) (ix2 b k))
          (fun o k => m ((c : Thread nD τ).loc main_arg1) (ix2 o k))
          (fun o k => m ((c : Thread nD τ).loc main_arg2) (ix2 o k))
          (fun k => m ((c : Thread nD τ).loc main_arg3) (ix1 k))
          (fun o => m ((c : Thread nD τ).loc main_arg4) (ix1 o))
          (fun o => m ((c : Thread nD τ).loc main_arg5) (ix1 o))
          (fun o => m ((c : Thread nD τ).loc main_arg6) (ix1 o))
          (fun o => m ((c : Thread nD τ).loc main_arg7) (ix1 o)) b o := rfl

/-- WHAT A LAST-HALF POINT WRITES BACK is its block of `result`. -/
theorem flushed_eq (c : Dev nD) (t : Fin cfg0.N) (hf : (cfg0.win 6).flush t = true) :
    (dats m 0 c).flushed 6 t = ((cfg0.win 6).blk t).view.read (Elt Ideal) (result m c) := by
  have hN : cfg0.N = 32 := N_0
  have htlt : t.val < 32 := lt_of_lt_of_eq t.isLt hN
  have h1 : t.val % 2 = 1 := (flush0_6 t).mp hf
  have h0 : ¬t.val % 2 = 0 := by omega
  have hs : t.val - 1 < cfg0.N := lt_of_lt_of_eq (by omega : t.val - 1 < 32) hN.symm
  have hs0 : (⟨t.val - 1, hs⟩ : Fin cfg0.N).val % 2 = 0 := by show (t.val - 1) % 2 = 0; omega
  have hs1 : ¬(⟨t.val - 1, hs⟩ : Fin cfg0.N).val % 2 = 1 := by show ¬(t.val - 1) % 2 = 1; omega
  -- the point's write-back is the case's output piece over what the point before left in the accumulator
  rw [Value.flushed6_B m c t h0 h1, out_last]
  have hprev := congrArg Prod.snd (outsAt0_A m c ⟨t.val - 1, hs⟩ hs0 hs1)
  dsimp only at hprev
  rw [hprev, acc_first]
  -- entry by entry
  funext y
  obtain ⟨r, cc, rfl⟩ : ∃ (r : Fin 256) (cc : Fin 512), y = ix2 r cc := ⟨y 0, y 1, eq_ix2 y⟩
  have hr := r.isLt
  have hcc := cc.isLt
  obtain ⟨e00, e01, e10, e11, e20, e21, e30, e31, e40, e41, e50, e51, hi, hj⟩ := idx_last t h1
  obtain ⟨f00, f01, f10, f11, f20, f21, f30, f31, f40, f41⟩ :=
    idx_first t ⟨t.val - 1, hs⟩ (by show t.val - 1 + 1 = t.val; omega) h1
  -- the block entry's place in the array
  have hb : win0_6.index t (0 : Fin 2) * 256 + r.val < 1024 := by omega
  have ho : win0_6.index t (1 : Fin 2) * 512 + cc.val < 2048 := by omega
  have hemb : ((cfg0.win 6).blk t).view.emb (ix2 r cc)
      = ix2 (⟨win0_6.index t (0 : Fin 2) * 256 + r.val, hb⟩ : Fin 1024) (⟨win0_6.index t (1 : Fin 2) * 512 + cc.val, ho⟩ : Fin 2048) := by
    funext a; apply Fin.ext
    match a with
    | ⟨0, _⟩ => show win0_6.index t (0 : Fin 2) * 256 + 1 * r.val = win0_6.index t (0 : Fin 2) * 256 + r.val; omega
    | ⟨1, _⟩ => show win0_6.index t (1 : Fin 2) * 512 + 1 * cc.val = win0_6.index t (1 : Fin 2) * 512 + cc.val; omega
  refine ((chain_apply (iblk m c 0 ⟨t.val - 1, hs⟩) (iblk m c 1 ⟨t.val - 1, hs⟩) (iblk m c 2 ⟨t.val - 1, hs⟩)
    (iblk m c 3 ⟨t.val - 1, hs⟩) (iblk m c 4 ⟨t.val - 1, hs⟩) (iblk m c 0 t) (iblk m c 1 t) (iblk m c 2 t) (iblk m c 3 t)
    (iblk m c 4 t) (iblk m c 5 t) r cc).trans ?_).trans (congrArg (result m c) hemb).symm
  rw [result_apply]
  -- every block entry is its array entry
  have A0' : ∀ k : Fin 1024, (iblk m c 0 ⟨t.val - 1, hs⟩ : Vec Ideal S256x1024 .f32) (ix2 r k)
      = m ((c : Thread nD τ).loc main_arg0) (ix2 (⟨win0_6.index t (0 : Fin 2) * 256 + r.val, hb⟩ : Fin 1024) (NoisySpec.half 0 k)) :=
    fun k => blk0_apply m c _ r k _ _ (by rw [f00]) (by rw [f01]; show 0 * 1024 + k.val = 1024 * 0 + k.val; omega)
  have A1' : ∀ k : Fin 1024, (iblk m c 1 ⟨t.val - 1, hs⟩ : Vec Ideal S512x1024 .f32) (ix2 cc k)
      = m ((c : Thread nD τ).loc main_arg1) (ix2 (⟨win0_6.index t (1 : Fin 2) * 512 + cc.val, ho⟩ : Fin 2048) (NoisySpec.half 0 k)) :=
    fun k => blk1_apply m c _ cc k _ _ (by rw [f10]) (by rw [f11]; show 0 * 1024 + k.val = 1024 * 0 + k.val; omega)
  have A2' : ∀ k : Fin 1024, (iblk m c 2 ⟨t.val - 1, hs⟩ : Vec Ideal S512x1024 .f32) (ix2 cc k)
      = m ((c : Thread nD τ).loc main_arg2) (ix2 (⟨win0_6.index t (1 : Fin 2) * 512 + cc.val, ho⟩ : Fin 2048) (NoisySpec.half 0 k)) :=
    fun k => blk2_apply m c _ cc k _ _ (by rw [f20]) (by rw [f21]; show 0 * 1024 + k.val = 1024 * 0 + k.val; omega)
  have A3' : ∀ k : Fin 1024, (iblk m c 3 ⟨t.val - 1, hs⟩ : Vec Ideal S1x1024 .f32) (ix2 (0 : Fin 1) k)
      = m ((c : Thread nD τ).loc main_arg3) (ix1 (NoisySpec.half 0 k)) :=
    fun k => (blk3_apply m c _ k (NoisySpec.half 0 k) f30 (by rw [f31]; show 0 * 1024 + k.val = 1024 * 0 + k.val; omega)).trans
      (ein_row_apply m c _)
  have A4' : (iblk m c 4 ⟨t.val - 1, hs⟩ : Vec Ideal S1x512 .f32) (ix2 (0 : Fin 1) cc)
      = m ((c : Thread nD τ).loc main_arg4) (ix1 (⟨win0_6.index t (1 : Fin 2) * 512 + cc.val, ho⟩ : Fin 2048)) :=
    (blk4_apply m c _ cc _ f40 (by rw [f41])).trans (eout_row_apply m c _)
  have A0 : ∀ k : Fin 1024, (iblk m c 0 t : Vec Ideal S256x1024 .f32) (ix2 r k)
      = m ((c : Thread nD τ).loc main_arg0) (ix2 (⟨win0_6.index t (0 : Fin 2) * 256 + r.val, hb⟩ : Fin 1024) (NoisySpec.half 1 k)) :=
    fun k => blk0_apply m c t r k _ _ (by rw [e00]) (by rw [e01]; show 1 * 1024 + k.val = 1024 * 1 + k.val; omega)
  have A1 : ∀ k : Fin 1024, (iblk m c 1 t : Vec Ideal S512x1024 .f32) (ix2 cc k)
      = m ((c : Thread nD τ).loc main_arg1) (ix2 (⟨win0_6.index t (1 : Fin 2) * 512 + cc.val, ho⟩ : Fin 2048) (NoisySpec.half 1 k)) :=
    fun k => blk1_apply m c t cc k _ _ (by rw [e10]) (by rw [e11]; show 1 * 1024 + k.val = 1024 * 1 + k.val; omega)
  have A2 : ∀ k : Fin 1024, (iblk m c 2 t : Vec Ideal S512x1024 .f32) (ix2 cc k)
      = m ((c : Thread nD τ).loc main_arg2) (ix2 (⟨win0_6.index t (1 : Fin 2) * 512 + cc.val, ho⟩ : Fin 2048) (NoisySpec.half 1 k)) :=
    fun k => blk2_apply m c t cc k _ _ (by rw [e20]) (by rw [e21]; show 1 * 1024 + k.val = 1024 * 1 + k.val; omega)
  have A3 : ∀ k : Fin 1024, (iblk m c 3 t : Vec Ideal S1x1024 .f32) (ix2 (0 : Fin 1) k)
      = m ((c : Thread nD τ).loc main_arg3) (ix1 (NoisySpec.half 1 k)) :=
    fun k => (blk3_apply m c t k (NoisySpec.half 1 k) e30 (by rw [e31]; show 1 * 1024 + k.val = 1024 * 1 + k.val; omega)).trans
      (ein_row_apply m c _)
  have A4 : (iblk m c 4 t : Vec Ideal S1x512 .f32) (ix2 (0 : Fin 1) cc)
      = m ((c : Thread nD τ).loc main_arg4) (ix1 (⟨win0_6.index t (1 : Fin 2) * 512 + cc.val, ho⟩ : Fin 2048)) :=
    (blk4_apply m c t cc _ e40 (by rw [e41])).trans (eout_row_apply m c _)
  have A5 : (iblk m c 5 t : Vec Ideal S1x512 .f32) (ix2 (0 : Fin 1) cc)
      = NoisySpec.bias (fun o => m ((c : Thread nD τ).loc main_arg5) (ix1 o)) (fun o => m ((c : Thread nD τ).loc main_arg6) (ix1 o)) (fun o => m ((c : Thread nD τ).loc main_arg7) (ix1 o))
          (⟨win0_6.index t (1 : Fin 2) * 512 + cc.val, ho⟩ : Fin 2048) :=
    (blk5_apply m c t cc _ e50 (by rw [e51])).trans (bias_row_apply m c _ _ _ _ rfl rfl rfl)
  simp only [A0', A1', A2', A3', A4', A0, A1, A2, A3, A4, A5]
  rfl

/-- An index of the array is in a point's output block iff each coordinate is in the block's range on its axis. -/
theorem mem_blk (t : Fin cfg0.N) (i : S1024x2048.Idx) :
    i ∈ ((cfg0.win 6).blk t).view.set ↔ ∀ a : Fin 2, win0_6.index t a * S256x512.size a ≤ (i a).val
      ∧ (i a).val < win0_6.index t a * S256x512.size a + S256x512.size a := by
  show i ∈ ((View.whole main_v0).slice (win0_6.rect t)).set ↔ _
  rw [View.set_slice_whole, Rect.mem_set_unit]
  exact Iff.rfl

/-- Every entry of the array lies in the output block of some last-half point: row `b`, channel `o` in block
    `(b / 256, o / 512)`. -/
theorem cover (i : S1024x2048.Idx) :
    ∃ t : Fin cfg0.N, (cfg0.win 6).flush t = true ∧ i ∈ ((cfg0.win 6).blk t).view.set := by
  have hi0 : (i 0).val < 1024 := idx2_lt0 i
  have hi1 : (i 1).val < 2048 := idx2_lt1 i
  obtain ⟨t, ht1, ht⟩ := idx_onto ⟨(i 0).val / 256, by omega⟩ ⟨(i 1).val / 512, by omega⟩
  have q0 : win0_6.index t (0 : Fin 2) = (i 0).val / 256 := congrFun ht 0
  have q1 : win0_6.index t (1 : Fin 2) = (i 1).val / 512 := congrFun ht 1
  refine ⟨t, (flush0_6 t).mpr ht1, ?_⟩
  rw [mem_blk]
  intro a
  match a with
  | ⟨0, _⟩ =>
    show win0_6.index t (0 : Fin 2) * 256 ≤ (i 0).val ∧ (i 0).val < win0_6.index t (0 : Fin 2) * 256 + 256
    omega
  | ⟨1, _⟩ =>
    show win0_6.index t (1 : Fin 2) * 512 ≤ (i 1).val ∧ (i 1).val < win0_6.index t (1 : Fin 2) * 512 + 512
    omega

/-- THE RESULT ARRAY after the run is `result`. -/
theorem final (c : Dev nD) : (dats m 0 c).arrAt 6 cfg0.N = result m c :=
  (dats m 0 c).arrAt_eq_of_cover 6 (result m c) (flushed_eq m c) cover

/-- … read at row `b`, channel `o`. -/
theorem final_apply (c : Dev nD) (b : Fin 1024) (o : Fin 2048) :
    (dats (F := Ideal) m 0 c).arrAt 6 cfg0.N (ix2 b o)
      = NoisySpec.split
          (fun b k => m ((c : Thread nD τ).loc main_arg0) (ix2 b k))
          (fun o k => m ((c : Thread nD τ).loc main_arg1) (ix2 o k))
          (fun o k => m ((c : Thread nD τ).loc main_arg2) (ix2 o k))
          (fun k => m ((c : Thread nD τ).loc main_arg3) (ix1 k))
          (fun o => m ((c : Thread nD τ).loc main_arg4) (ix1 o))
          (fun o => m ((c : Thread nD τ).loc main_arg5) (ix1 o))
          (fun o => m ((c : Thread nD τ).loc main_arg6) (ix1 o))
          (fun o => m ((c : Thread nD τ).loc main_arg7) (ix1 o)) b o := by
  rw [final]
  rfl

end Cert.ReferenceIdeal.NoisyValue

end
-- ==== Proof.lean ====
/-
  A noisy linear layer with factorized noise, computed two ways, gives the same result over the extended reals.

  The layer takes 1024 rows `x` of 2048 inputs to 2048 outputs.  With noise vectors `eps_in`, `eps_out` the
  effective weight is `weight_mu o k + weight_sigma o k * (eps_out o * eps_in k)` and the effective bias
  `bias_mu o + bias_sigma o * bias_epsilon o`.

  The kernel forms the effective weight for 512 output channels at a time and takes ONE product of `x` with it
  over all 2048 inputs, then adds the bias (`NoisySpec.fused`).  The reference keeps the mean path `x·weight_mu`
  and the noise path `((x·eps_in)·weight_sigma)·eps_out` apart and accumulates them over two halves of the input
  axis onto zero, in a fixed order, then adds the bias (`NoisySpec.split`).

  What each program's result array holds is read off its run, index by index (KernelFinal, RefValue).  The two
  arrangements differ by distributing `x` and `eps_out` over sums and by cutting a sum in two.  Over the
  extended reals distributivity fails at infinite entries, so the precondition is used: every input is finite,
  hence every entry of `x`, the two weight matrices and the two noise vectors is a real number (NoisyFinite), all
  the sums and products are the reals', and the two arrangements agree (`NoisySpec.fused_eq_split`).  The bias is
  the same term on both sides and needs no finiteness.

  Each program runs to the end and leaves its arguments as they were: the three frame claims.  The idealized kernel
  is the kernel's own text read over the extended reals (nothing was rewritten), so there is nothing to preserve.
-/
import proofs.«163315_g2000605556667554_pallasbulk_845_24_alg».proof.Defs
import proofs.«163315_g2000605556667554_pallasbulk_845_24_alg».proof.Proof.Gen.Kernel
import proofs.«163315_g2000605556667554_pallasbulk_845_24_alg».proof.Proof.Gen.Kernel.Skeleton
import proofs.«163315_g2000605556667554_pallasbulk_845_24_alg».proof.Proof.Gen.Kernel.Launch
import proofs.«163315_g2000605556667554_pallasbulk_845_24_alg».proof.Proof.Gen.Kernel.Points
import proofs.«163315_g2000605556667554_pallasbulk_845_24_alg».proof.Proof.Gen.Kernel.Frame
import proofs.«163315_g2000605556667554_pallasbulk_845_24_alg».proof.Proof.Gen.KernelIdeal
import proofs.«163315_g2000605556667554_pallasbulk_845_24_alg».proof.Proof.Gen.KernelIdeal.Skeleton
import proofs.«163315_g2000605556667554_pallasbulk_845_24_alg».proof.Proof.Gen.KernelIdeal.Launch
import proofs.«163315_g2000605556667554_pallasbulk_845_24_alg».proof.Proof.Gen.KernelIdeal.Points
import proofs.«163315_g2000605556667554_pallasbulk_845_24_alg».proof.Proof.Gen.KernelIdeal.Frame
import proofs.«163315_g2000605556667554_pallasbulk_845_24_alg».proof.Proof.Gen.ReferenceIdeal
import proofs.«163315_g2000605556667554_pallasbulk_845_24_alg».proof.Proof.Gen.ReferenceIdeal.Skeleton
import proofs.«163315_g2000605556667554_pallasbulk_845_24_alg».proof.Proof.Gen.ReferenceIdeal.Launch
import proofs.«163315_g2000605556667554_pallasbulk_845_24_alg».proof.Proof.Gen.ReferenceIdeal.Points
import proofs.«163315_g2000605556667554_pallasbulk_845_24_alg».proof.Proof.Gen.ReferenceIdeal.Frame
import proofs.«163315_g2000605556667554_pallasbulk_845_24_alg».proof.Proof.Gen.Pre_finite_inputs
import proofs.«163315_g2000605556667554_pallasbulk_845_24_alg».proof.Proof.Gen.KernelIdeal.Value
import proofs.«163315_g2000605556667554_pallasbulk_845_24_alg».proof.Proof.Gen.ReferenceIdeal.Value
import proofs.«163315_g2000605556667554_pallasbulk_845_24_alg».proof.Proof.NoisySpec
import proofs.«163315_g2000605556667554_pallasbulk_845_24_alg».proof.Proof.NoisyFinite
import proofs.«163315_g2000605556667554_pallasbulk_845_24_alg».proof.Proof.KernelFinal
import proofs.«163315_g2000605556667554_pallasbulk_845_24_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs to the end and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference read over the extended reals. -/
theorem frame_referenceIdeal : Cert.frame_ReferenceIdeal := fun m ρ _ => Cert.ReferenceIdeal.Gen.frame m ρ

/-- Nothing of the kernel was rewritten for its reading over the extended reals. -/
theorem preserves : Cert.preserves_Kernel_KernelIdeal := trivial

/-- From memories that agree on the arguments, all of them finite, the two programs end with the same result
    array: at row `b`, channel `o` the kernel's holds the fused arrangement of the arguments, the reference's the
    split one, and on real entries those agree. -/
theorem algebraic : Cert.algebraic_KernelIdeal_ReferenceIdeal := by
  intro m ρ m' ρ' hpre hagree
  refine ⟨fun c => (Cert.KernelIdeal.Gen.dats (F := Ideal) m 0 c).arrAt 8 Cert.KernelIdeal.cfg0.N,
    Cert.KernelIdeal.Value.run_blocks (F := Ideal) m ρ, ?_⟩
  refine (θ_run Cert.ReferenceIdeal.defs _ _).mono (fun r h c => ⟨(h c).1.trans ?_, (h c).2⟩)
    (Cert.ReferenceIdeal.Value.run_blocks (F := Ideal) m' ρ')
  funext i
  obtain ⟨b, o, rfl⟩ : ∃ (b : Fin 1024) (o : Fin 2048), i = ix2 b o := ⟨i 0, i 1, eq_ix2 i⟩
  obtain ⟨a0, a1, a2, a3, a4, a5, a6, a7⟩ := hagree c
  obtain ⟨r0, r1, r2, r3, r4⟩ := Cert.Proof.NoisyFinite.real_of_pre m hpre c
  refine (Cert.ReferenceIdeal.NoisyValue.final_apply m' c b o).trans ?_
  refine Eq.trans ?_ (Cert.KernelIdeal.NoisyValue.final_apply m c b o).symm
  rw [a0, a1, a2, a3, a4, a5, a6, a7]
  exact (NoisySpec.fused_eq_split _ _ _ _ _ _ _ _ (fun b k => r0 _) (fun o k => r1 _) (fun o k => r2 _)
    (fun k => r3 _) (fun o => r4 _) b o).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
